-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x1 : Shape := ⟨2, ![5000, 1]⟩

abbrev nBuf : Space → Nat
  | .hbm => 157
  | .vmem => 42
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S1x128, .f32⟩
  | 60 => ⟨S100000x128, .f32⟩
  | 61 => ⟨S100000x128, .f32⟩
  | 62 => ⟨S_, .f32⟩
  | 63 => ⟨S100000, .f32⟩
  | 64 => ⟨S1600000x1, .i32⟩
  | 65 => ⟨S100000, .f32⟩
  | 66 => ⟨S_, .f32⟩
  | 67 => ⟨S100000, .f32⟩
  | 68 => ⟨S100000, .f32⟩
  | 69 => ⟨S100000, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S1600000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S1600000, .f32⟩
  | 90 => ⟨S1600000x1, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x128, .f32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x1, .f32⟩
  | 107 => ⟨S1x128, .f32⟩
  | 108 => ⟨S100000x128, .f32⟩
  | 109 => ⟨S100000x128, .f32⟩
  | 110 => ⟨S_, .f32⟩
  | 111 => ⟨S100000, .f32⟩
  | 112 => ⟨S1600000x1, .i32⟩
  | 113 => ⟨S100000, .f32⟩
  | 114 => ⟨S_, .f32⟩
  | 115 => ⟨S100000, .f32⟩
  | 116 => ⟨S100000, .f32⟩
  | 117 => ⟨S100000, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S1600000, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000, .f32⟩
  | 9 => ⟨S1600000, .f32⟩
  | 10 => ⟨S1600000x1, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1600000x128, .f32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x1, .f32⟩
  | 27 => ⟨S1x128, .f32⟩
  | 28 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_v67 : Ref sig .tc := ⟨.hbm, 92, rfl⟩
abbrev main_v68 : Ref sig .tc := ⟨.hbm, 93, rfl⟩
abbrev main_c_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_18 : Ref sig .tc := ⟨.hbm, 118, rfl⟩
abbrev main_v89 : Ref sig .tc := ⟨.hbm, 119, rfl⟩
abbrev main_v90 : Ref sig .tc := ⟨.hbm, 120, rfl⟩
abbrev main_c_19 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_20 : Ref sig .tc := ⟨.hbm, 128, rfl⟩
abbrev main_v97 : Ref sig .tc := ⟨.hbm, 129, rfl⟩
abbrev main_v98 : Ref sig .tc := ⟨.hbm, 130, rfl⟩
abbrev main_c_21 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_c_22 : Ref sig .tc := ⟨.hbm, 139, rfl⟩
abbrev main_v106 : Ref sig .tc := ⟨.hbm, 140, rfl⟩
abbrev main_v107 : Ref sig .tc := ⟨.hbm, 141, rfl⟩
abbrev main_c_23 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_24 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v81) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v117) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v118) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v119) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v120) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S1600000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S1600000, .f32⟩
  | 98 => ⟨S1600000x1, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x128, .f32⟩
  | 126 => ⟨S_, .f32⟩
  | 127 => ⟨S100000, .f32⟩
  | _ => ⟨S100000x128, .f32⟩

abbrev hbmTy0_1 (i : Nat) : BufTy := match i % 128 with
  | 0 => ⟨S1600000x1, .i32⟩
  | 1 => ⟨S100000, .f32⟩
  | 2 => ⟨S_, .f32⟩
  | 3 => ⟨S100000, .f32⟩
  | 4 => ⟨S100000, .f32⟩
  | 5 => ⟨S100000, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000, .f32⟩
  | 15 => ⟨S1600000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S1600000, .f32⟩
  | 26 => ⟨S1600000x1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S1600000x128, .f32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_13 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_17 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_18 : Ref sig .tc := ⟨.hbm, 134, rfl⟩
abbrev main_v101 : Ref sig .tc := ⟨.hbm, 135, rfl⟩
abbrev main_v102 : Ref sig .tc := ⟨.hbm, 136, rfl⟩
abbrev main_c_19 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_20 : Ref sig .tc := ⟨.hbm, 144, rfl⟩
abbrev main_v109 : Ref sig .tc := ⟨.hbm, 145, rfl⟩
abbrev main_v110 : Ref sig .tc := ⟨.hbm, 146, rfl⟩
abbrev main_c_21 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_22 : Ref sig .tc := ⟨.hbm, 155, rfl⟩
abbrev main_v118 : Ref sig .tc := ⟨.hbm, 156, rfl⟩
abbrev main_v119 : Ref sig .tc := ⟨.hbm, 157, rfl⟩
abbrev main_c_23 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_24 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_call2_cst : Ref sig .tc := ⟨.hbm, 178, rfl⟩
abbrev main_call2_v0 : Ref sig .tc := ⟨.hbm, 179, rfl⟩
abbrev main_v138 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its RESULT named.

  @main of the kernel is ten segments: four stretches of host operations and six pipelined regions (three
  row-tiled matrix products and three row-tiled combine-and-clamp bodies). The contents of every TensorCore
  buffer at each segment boundary are a fold through @main; the last of them, at the return, is `Gen.W10`.
  Every weakly fair execution terminates without a fault in a state whose unscoped buffers hold exactly that
  last boundary's contents; so the result buffer ends at `Gen.W10` read at the result, and each argument as
  launched. What that last fold IS, as a function of the arguments, is the business of the modules that
  import this one.
-/
import proofs.«150629_j3307124818507_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting,
    with the result buffer at the last boundary's contents and every argument as launched. -/
theorem run_result : θ_run defs (onTc (τ := τ) (main (F := F))) ⟨m, fun _ => 0, ρ⟩ (fun r => ∀ c : Dev nD,
      r.2.mem ((c.tc : Thread nD τ).loc main_v120) = W10 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v120 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.GcnRun

end
-- ==== Proof.Spec.lean ====
/-
  The two index-wise functions the kernel's regions compute at the ideal values, over the literal shapes.

  One graph-convolution layer is   relu( agg + dinv² · (h · W) + b ).
  The kernel computes the matrix product h · W in row tiles, every tile holding all 128 columns of h, so an
  entry of the product is the whole sum over k of h[r, k] · W[k, c] (`product`); and it computes the
  combination in row tiles too, entry by entry (`combine`):
      max( (agg[r, c] + (dinv[r] · dinv[r]) · xw[r, c]) + b[c], 0 ),
  where dinv arrives as a column [100000, 1] and b as a row [1, 128]. Nothing here imports a program; the
  operations are the instance's own scalar operations, so `combine` is stated for every instance.
-/
import Idealize.ShloMosaic.PureOps.Ideal
import Idealize.ShloMosaic.Lib.ValueIdx

noncomputable section

namespace Cert.Gcn

open Idealize.ShloMosaic

/-- Node features: 100000 nodes by 128 channels. -/
abbrev SNodes : Shape := ⟨2, ![100000, 128]⟩
/-- A weight matrix: 128 by 128. -/
abbrev SWeight : Shape := ⟨2, ![128, 128]⟩
/-- One number per node, as a column. -/
abbrev SCol : Shape := ⟨2, ![100000, 1]⟩
/-- One number per channel, as a row. -/
abbrev SRow : Shape := ⟨2, ![1, 128]⟩

/-- Entry (row of `i`, `k`) of a node-feature array. -/
abbrev inRow (i : SNodes.Idx) (k : Fin 128) : SNodes.Idx := fun a => match a with
  | ⟨0, _⟩ => ⟨(i 0).val, (i 0).isLt⟩
  | ⟨1, _⟩ => ⟨k.val, k.isLt⟩
/-- Entry (`k`, column of `i`) of a weight matrix. -/
abbrev inCol (i : SNodes.Idx) (k : Fin 128) : SWeight.Idx := fun a => match a with
  | ⟨0, _⟩ => ⟨k.val, k.isLt⟩
  | ⟨1, _⟩ => ⟨(i 1).val, (i 1).isLt⟩
/-- The entry of a per-node column that belongs to the node of `i`. -/
abbrev ofNode (i : SNodes.Idx) : SCol.Idx := fun a => match a with
  | ⟨0, _⟩ => ⟨(i 0).val, (i 0).isLt⟩
  | ⟨1, _⟩ => ⟨0, Nat.one_pos⟩
/-- The entry of a per-channel row that belongs to the channel of `i`. -/
abbrev ofChannel (i : SNodes.Idx) : SRow.Idx := fun a => match a with
  | ⟨0, _⟩ => ⟨0, Nat.one_pos⟩
  | ⟨1, _⟩ => ⟨(i 1).val, (i 1).isLt⟩

/-- The matrix product at the ideal values: entry (r, c) is the sum over all k of h[r, k] · W[k, c]. -/
def product (h : (⟨SNodes, .f32⟩ : BufTy).Contents (Elt Ideal)) (w : (⟨SWeight, .f32⟩ : BufTy).Contents (Elt Ideal)) :
    (⟨SNodes, .f32⟩ : BufTy).Contents (Elt Ideal) :=
  fun i => ∑ k : Fin 128, h (inRow i k) * w (inCol i k)

variable {F : FTy → Type} [FloatOps F]

/-- The combination, entry by entry: max((agg + (dinv · dinv) · xw) + b, 0), in exactly this grouping. -/
def combine (agg xw : (⟨SNodes, .f32⟩ : BufTy).Contents (Elt F)) (dinv : (⟨SCol, .f32⟩ : BufTy).Contents (Elt F))
    (b : (⟨SRow, .f32⟩ : BufTy).Contents (Elt F)) : (⟨SNodes, .f32⟩ : BufTy).Contents (Elt F) :=
  fun i => FloatOps.maximumf
    (FloatOps.addf (FloatOps.addf (agg i) (FloatOps.mulf (FloatOps.mulf (dinv (ofNode i)) (dinv (ofNode i))) (xw i))) (b (ofChannel i)))
    (FloatOps.ofBits .f32 0x00000000#32)

end Cert.Gcn

end
-- ==== Proof.Product0.lean ====
/-
  Region 0 of the kernel: a row-tiled matrix product, read as ONE function of its two arrays.

  The grid has 20 points; point t holds rows 5000·t … 5000·t + 4999 of the left array (all 128 columns), the whole
  128 × 128 right array, and writes the same rows of the result. Inside a tile the body rounds both operands to
  bf16 — the identity at the ideal values — and multiplies into a zero accumulator, so entry (r, c) of the tile is
  the whole sum over k of left[r, k] · right[k, c]: no sum is split across tiles. The tiles cover the result, so
  after the region the result array is `Cert.Gcn.product` of the two arrays as the region found them, whatever
  those were (the contents at entry are a parameter `V`).
-/
import proofs.«150629_j3307124818507_1_alg».proof.Proof.Gen.KernelIdeal.Frame
import proofs.«150629_j3307124818507_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Product0

open Cert.KernelIdeal Cert.KernelIdeal.Gen Cert.Gcn
open Idealize.ShloMosaic Idealize.ShloMosaic.TcCoe Idealize.SL.Sem
open Idealize.ShloMosaic.Pipeline (Dat Cfg Window)

theorem zeroOffsets : (![0, 0] : Fin 2 → Nat) = fun _ => 0 := funext fun a => by fin_cases a <;> rfl

/-- Inside a tile: entry (row of `j`, `k`) of the left block. -/
abbrev tileRow (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the right array. -/
abbrev tileCol (j : S5000x128.Idx) (k : Fin 128) : S128x128.Idx := fun a => match a with
  | ⟨0, _⟩ => ⟨k.val, k.isLt⟩
  | ⟨1, _⟩ => ⟨(j 1).val, (j 1).isLt⟩

/-! The operand indices of the tile's product: the left operand is read at (row, k), the right at (k, column). -/

theorem left_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem left_k (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem right_k (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem right_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one stored value at an entry of the tile: the sum over k of left[row, k] · right[k, column]. The
    roundings to bf16 are the identity at the ideal values and the accumulator is the zero word. -/
theorem tile_entry (x0 : Vec Ideal S5000x128 .f32) (x1 : Vec Ideal S128x128 .f32) (j : S5000x128.Idx) :
    k0_pay1 (F := Ideal) x0 x1 j = ∑ k : Fin 128, x0 (tileRow j k) * x1 (tileCol j k) := by
  unfold k0_pay1
  try simp only [shapeCast_self]
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = tileRow j k := funext fun a => Fin.ext (by
    match a with
    | ⟨0, _⟩ => exact left_row _ _
    | ⟨1, _⟩ => exact (left_k _ _).trans hk)
  have er : dot_S5000x128_S128x128_S5000x128_1_0_0_1_n_n.rhsIdx j ((ValueIdx.contrEquiv1 dot_S5000x128_S128x128_S5000x128_1_0_0_1_n_n 128 rfl rfl).symm k) = tileCol j k := funext fun a => Fin.ext (by
    match a with
    | ⟨0, _⟩ => exact (right_k _ _).trans hk
    | ⟨1, _⟩ => exact right_col _ _)
  rw [el, er]
  rfl

variable (V : (c : Dev nD) → (b : Ref sig .tc) → Buf (Elt Ideal) ((c : Thread nD τ).loc b))

/-- The printed index maps over the grid: the left and the result windows move down the rows together, one tile
    per point; the right window stays put; no window moves along the columns. -/
theorem tile_positions : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is tile `t` of the product of the two arrays as the region found them. -/
theorem written_back (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := tile_positions t
  funext j
  refine (tile_entry (iblk0 V c 0 t) (iblk0 V c 1 t) j).trans ?_
  show _ = product (V c main_arg0) (V c main_arg3) (((cfg0.win 2).blk t).view.emb j)
  unfold product
  refine Finset.sum_congr rfl fun k _ => ?_
  have h0 : ((cfg0.win 0).blk t).view.emb (tileRow j k) = inRow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (tileCol j k) = inCol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  congr 1
  · show V c main_arg0 (((cfg0.win 0).blk t).view.emb (tileRow j k)) = V c main_arg0 (inRow (((cfg0.win 2).blk t).view.emb j) k)
    rw [h0]
  · show V c main_arg3 (((cfg0.win 1).blk t).view.emb (tileCol j k)) = V c main_arg3 (inCol (((cfg0.win 2).blk t).view.emb j) k)
    rw [h1]

/-- An entry of the result array lies in point `t`'s tile iff each coordinate lies in the tile's range. -/
theorem in_tile (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every entry of the result is in some point's tile: row r is in tile r / 5000. -/
theorem tiles_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < grid0.N := by rw [hN]; omega
  refine ⟨⟨(i 0).val / 5000, ht⟩, flush0_2 _, ?_⟩
  obtain ⟨e0, e1, e2, e3, e4, e5⟩ := tile_positions ⟨(i 0).val / 5000, ht⟩
  rw [in_tile]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e4]; omega

/-- After the region the result array is the product of the two arrays as the region found them. -/
theorem value (c : Dev nD) : (dat0 V c).arrAt 2 cfg0.N = product (V c main_arg0) (V c main_arg3) :=
  (dat0 V c).arrAt_eq_of_cover 2 (product (V c main_arg0) (V c main_arg3)) (fun t _ => written_back V c t) (tiles_cover)

end Cert.KernelIdeal.Product0

end
-- ==== Proof.Product2.lean ====
/-
  Region 2 of the kernel: a row-tiled matrix product, read as ONE function of its two arrays.

  The grid has 20 points; point t holds rows 5000·t … 5000·t + 4999 of the left array (all 128 columns), the whole
  128 × 128 right array, and writes the same rows of the result. Inside a tile the body rounds both operands to
  bf16 — the identity at the ideal values — and multiplies into a zero accumulator, so entry (r, c) of the tile is
  the whole sum over k of left[r, k] · right[k, c]: no sum is split across tiles. The tiles cover the result, so
  after the region the result array is `Cert.Gcn.product` of the two arrays as the region found them, whatever
  those were (the contents at entry are a parameter `V`).
-/
import proofs.«150629_j3307124818507_1_alg».proof.Proof.Gen.KernelIdeal.Frame
import proofs.«150629_j3307124818507_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen Cert.Gcn
open Idealize.ShloMosaic Idealize.ShloMosaic.TcCoe Idealize.SL.Sem
open Idealize.ShloMosaic.Pipeline (Dat Cfg Window)

theorem zeroOffsets : (![0, 0] : Fin 2 → Nat) = fun _ => 0 := funext fun a => by fin_cases a <;> rfl

/-- Inside a tile: entry (row of `j`, `k`) of the left block. -/
abbrev tileRow (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the right array. -/
abbrev tileCol (j : S5000x128.Idx) (k : Fin 128) : S128x128.Idx := fun a => match a with
  | ⟨0, _⟩ => ⟨k.val, k.isLt⟩
  | ⟨1, _⟩ => ⟨(j 1).val, (j 1).isLt⟩

/-! The operand indices of the tile's product: the left operand is read at (row, k), the right at (k, column). -/

theorem left_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem left_k (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem right_k (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem right_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one stored value at an entry of the tile: the sum over k of left[row, k] · right[k, column]. The
    roundings to bf16 are the identity at the ideal values and the accumulator is the zero word. -/
theorem tile_entry (x0 : Vec Ideal S5000x128 .f32) (x1 : Vec Ideal S128x128 .f32) (j : S5000x128.Idx) :
    k2_pay1 (F := Ideal) x0 x1 j = ∑ k : Fin 128, x0 (tileRow j k) * x1 (tileCol j k) := by
  unfold k2_pay1
  try simp only [shapeCast_self]
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = tileRow j k := funext fun a => Fin.ext (by
    match a with
    | ⟨0, _⟩ => exact left_row _ _
    | ⟨1, _⟩ => exact (left_k _ _).trans hk)
  have er : dot_S5000x128_S128x128_S5000x128_1_0_0_1_n_n.rhsIdx j ((ValueIdx.contrEquiv1 dot_S5000x128_S128x128_S5000x128_1_0_0_1_n_n 128 rfl rfl).symm k) = tileCol j k := funext fun a => Fin.ext (by
    match a with
    | ⟨0, _⟩ => exact (right_k _ _).trans hk
    | ⟨1, _⟩ => exact right_col _ _)
  rw [el, er]
  rfl

variable (V : (c : Dev nD) → (b : Ref sig .tc) → Buf (Elt Ideal) ((c : Thread nD τ).loc b))

/-- The printed index maps over the grid: the left and the result windows move down the rows together, one tile
    per point; the right window stays put; no window moves along the columns. -/
theorem tile_positions : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point `t` writes back is tile `t` of the product of the two arrays as the region found them. -/
theorem written_back (c : Dev nD) (t : Fin cfg2.N) :
    (dat2 V c).flushed 2 t = ((cfg2.win 2).blk t).view.read (Elt Ideal) (product (V c main_v42) (V c main_arg5)) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x128) zeroOffsets]
  obtain ⟨e0, e1, e2, e3, e4, e5⟩ := tile_positions t
  funext j
  refine (tile_entry (iblk2 V c 0 t) (iblk2 V c 1 t) j).trans ?_
  show _ = product (V c main_v42) (V c main_arg5) (((cfg2.win 2).blk t).view.emb j)
  unfold product
  refine Finset.sum_congr rfl fun k _ => ?_
  have h0 : ((cfg2.win 0).blk t).view.emb (tileRow j k) = inRow (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (tileCol j k) = inCol (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  congr 1
  · show V c main_v42 (((cfg2.win 0).blk t).view.emb (tileRow j k)) = V c main_v42 (inRow (((cfg2.win 2).blk t).view.emb j) k)
    rw [h0]
  · show V c main_arg5 (((cfg2.win 1).blk t).view.emb (tileCol j k)) = V c main_arg5 (inCol (((cfg2.win 2).blk t).view.emb j) k)
    rw [h1]

/-- An entry of the result array lies in point `t`'s tile iff each coordinate lies in the tile's range. -/
theorem in_tile (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Every entry of the result is in some point's tile: row r is in tile r / 5000. -/
theorem tiles_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  have ht : (i 0).val / 5000 < grid2.N := by rw [hN]; omega
  refine ⟨⟨(i 0).val / 5000, ht⟩, flush2_2 _, ?_⟩
  obtain ⟨e0, e1, e2, e3, e4, e5⟩ := tile_positions ⟨(i 0).val / 5000, ht⟩
  rw [in_tile]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e4]; omega

/-- After the region the result array is the product of the two arrays as the region found them. -/
theorem value (c : Dev nD) : (dat2 V c).arrAt 2 cfg2.N = product (V c main_v42) (V c main_arg5) :=
  (dat2 V c).arrAt_eq_of_cover 2 (product (V c main_v42) (V c main_arg5)) (fun t _ => written_back V c t) (tiles_cover)

end Cert.KernelIdeal.Product2

end
-- ==== Proof.Product4.lean ====
/-
  Region 4 of the kernel: a row-tiled matrix product, read as ONE function of its two arrays.

  The grid has 20 points; point t holds rows 5000·t … 5000·t + 4999 of the left array (all 128 columns), the whole
  128 × 128 right array, and writes the same rows of the result. Inside a tile the body rounds both operands to
  bf16 — the identity at the ideal values — and multiplies into a zero accumulator, so entry (r, c) of the tile is
  the whole sum over k of left[r, k] · right[k, c]: no sum is split across tiles. The tiles cover the result, so
  after the region the result array is `Cert.Gcn.product` of the two arrays as the region found them, whatever
  those were (the contents at entry are a parameter `V`).
-/
import proofs.«150629_j3307124818507_1_alg».proof.Proof.Gen.KernelIdeal.Frame
import proofs.«150629_j3307124818507_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Product4

open Cert.KernelIdeal Cert.KernelIdeal.Gen Cert.Gcn
open Idealize.ShloMosaic Idealize.ShloMosaic.TcCoe Idealize.SL.Sem
open Idealize.ShloMosaic.Pipeline (Dat Cfg Window)

theorem zeroOffsets : (![0, 0] : Fin 2 → Nat) = fun _ => 0 := funext fun a => by fin_cases a <;> rfl

/-- Inside a tile: entry (row of `j`, `k`) of the left block. -/
abbrev tileRow (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the right array. -/
abbrev tileCol (j : S5000x128.Idx) (k : Fin 128) : S128x128.Idx := fun a => match a with
  | ⟨0, _⟩ => ⟨k.val, k.isLt⟩
  | ⟨1, _⟩ => ⟨(j 1).val, (j 1).isLt⟩

/-! The operand indices of the tile's product: the left operand is read at (row, k), the right at (k, column). -/

theorem left_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem left_k (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem right_k (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem right_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one stored value at an entry of the tile: the sum over k of left[row, k] · right[k, column]. The
    roundings to bf16 are the identity at the ideal values and the accumulator is the zero word. -/
theorem tile_entry (x0 : Vec Ideal S5000x128 .f32) (x1 : Vec Ideal S128x128 .f32) (j : S5000x128.Idx) :
    k4_pay1 (F := Ideal) x0 x1 j = ∑ k : Fin 128, x0 (tileRow j k) * x1 (tileCol j k) := by
  unfold k4_pay1
  try simp only [shapeCast_self]
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = tileRow j k := funext fun a => Fin.ext (by
    match a with
    | ⟨0, _⟩ => exact left_row _ _
    | ⟨1, _⟩ => exact (left_k _ _).trans hk)
  have er : dot_S5000x128_S128x128_S5000x128_1_0_0_1_n_n.rhsIdx j ((ValueIdx.contrEquiv1 dot_S5000x128_S128x128_S5000x128_1_0_0_1_n_n 128 rfl rfl).symm k) = tileCol j k := funext fun a => Fin.ext (by
    match a with
    | ⟨0, _⟩ => exact (right_k _ _).trans hk
    | ⟨1, _⟩ => exact right_col _ _)
  rw [el, er]
  rfl

variable (V : (c : Dev nD) → (b : Ref sig .tc) → Buf (Elt Ideal) ((c : Thread nD τ).loc b))

/-- The printed index maps over the grid: the left and the result windows move down the rows together, one tile
    per point; the right window stays put; no window moves along the columns. -/
theorem tile_positions : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

/-- What point `t` writes back is tile `t` of the product of the two arrays as the region found them. -/
theorem written_back (c : Dev nD) (t : Fin cfg4.N) :
    (dat4 V c).flushed 2 t = ((cfg4.win 2).blk t).view.read (Elt Ideal) (product (V c main_v81) (V c main_arg7)) := by
  show (cfg4.win 2).cut (grid4.coords t) ((dat4 V c).after 2 t) = _
  rw [after4_2]
  unfold out4_2
  rw [View.canon_unit_zero zeroOffsets]
  simp only [View.ld_unit_zero (S := S5000x128) zeroOffsets, View.ld_unit_zero (S := S128x128) zeroOffsets]
  obtain ⟨e0, e1, e2, e3, e4, e5⟩ := tile_positions t
  funext j
  refine (tile_entry (iblk4 V c 0 t) (iblk4 V c 1 t) j).trans ?_
  show _ = product (V c main_v81) (V c main_arg7) (((cfg4.win 2).blk t).view.emb j)
  unfold product
  refine Finset.sum_congr rfl fun k _ => ?_
  have h0 : ((cfg4.win 0).blk t).view.emb (tileRow j k) = inRow (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (tileCol j k) = inCol (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  congr 1
  · show V c main_v81 (((cfg4.win 0).blk t).view.emb (tileRow j k)) = V c main_v81 (inRow (((cfg4.win 2).blk t).view.emb j) k)
    rw [h0]
  · show V c main_arg7 (((cfg4.win 1).blk t).view.emb (tileCol j k)) = V c main_arg7 (inCol (((cfg4.win 2).blk t).view.emb j) k)
    rw [h1]

/-- An entry of the result array lies in point `t`'s tile iff each coordinate lies in the tile's range. -/
theorem in_tile (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v82).slice (win4_2.rect t)).set ↔ _
  rw [View.set_slice_whole, Rect.mem_set_unit]
  exact Iff.rfl

/-- Every entry of the result is in some point's tile: row r is in tile r / 5000. -/
theorem tiles_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 20 := N_4
  have ht : (i 0).val / 5000 < grid4.N := by rw [hN]; omega
  refine ⟨⟨(i 0).val / 5000, ht⟩, flush4_2 _, ?_⟩
  obtain ⟨e0, e1, e2, e3, e4, e5⟩ := tile_positions ⟨(i 0).val / 5000, ht⟩
  rw [in_tile]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    rw [e4]; omega

/-- After the region the result array is the product of the two arrays as the region found them. -/
theorem value (c : Dev nD) : (dat4 V c).arrAt 2 cfg4.N = product (V c main_v81) (V c main_arg7) :=
  (dat4 V c).arrAt_eq_of_cover 2 (product (V c main_v81) (V c main_arg7)) (fun t _ => written_back V c t) (tiles_cover)

end Cert.KernelIdeal.Product4

end
-- ==== Proof.Combine1.lean ====
/-
  Region 1 of the kernel: the row-tiled combination and clamp, read as ONE function of its four arrays.

  The grid has 20 points; point t holds rows 5000·t … 5000·t + 4999 of the aggregated messages, of the projected
  features and of the per-node column dinv, the whole per-channel row b, and writes the same rows of the result.
  Inside a tile every entry is  max((agg + (dinv · dinv) · xw) + b, 0)  with dinv read at the entry's row and b at
  its column. The tiles cover the result, so after the region the result array is `Cert.Gcn.combine` of the four
  arrays as the region found them (the contents at entry are a parameter `V`). Only the instance's own scalar
  operations occur, so this holds at every instance.
-/
import proofs.«150629_j3307124818507_1_alg».proof.Proof.Gen.KernelIdeal.Frame
import proofs.«150629_j3307124818507_1_alg».proof.Proof.Spec
import Idealize.ShloMosaic.Lib.Pipeline.Value
import Idealize.ShloMosaic.Lib.ValueIdx

set_option maxRecDepth 16384

noncomputable section

namespace Cert.KernelIdeal.Combine1

open Cert.KernelIdeal Cert.KernelIdeal.Gen Cert.Gcn
open Idealize.ShloMosaic Idealize.ShloMosaic.TcCoe Idealize.SL.Sem
open Idealize.ShloMosaic.Pipeline (Dat Cfg Window)

variable {F : FTy → Type} [FloatOps F]

theorem zeroOffsets : (![0, 0] : Fin 2 → Nat) = fun _ => 0 := funext fun a => by fin_cases a <;> rfl

/-- Inside a tile: the entry of the per-node column block that belongs to the row of `j`. -/
abbrev tileNode (j : S5000x128.Idx) : S5000x1.Idx := fun a => match a with
  | ⟨0, _⟩ => ⟨(j 0).val, (j 0).isLt⟩
  | ⟨1, _⟩ => ⟨0, Nat.one_pos⟩
/-- The entry of the per-channel row that belongs to the column of `j`. -/
abbrev tileChannel (j : S5000x128.Idx) : S1x128.Idx := fun a => match a with
  | ⟨0, _⟩ => ⟨0, Nat.one_pos⟩
  | ⟨1, _⟩ => ⟨(j 1).val, (j 1).isLt⟩

/-- The body's one stored value at an entry of the tile. -/
theorem tile_entry (d : Vec F S5000x1 .f32) (a x : Vec F S5000x128 .f32) (b : Vec F S1x128 .f32) (j : S5000x128.Idx) :
    k1_pay1 (F := F) d a x b j
      = FloatOps.maximumf (FloatOps.addf (FloatOps.addf (a j) (FloatOps.mulf (FloatOps.mulf (d (tileNode j)) (d (tileNode j))) (x j))) (b (tileChannel j)))
          (FloatOps.ofBits .f32 0x00000000#32) := by
  unfold k1_pay1
  simp only [shapeCast_self]
  have hd : broadcastTo S5000x128 (mulf d d) broadcasts_S5000x1_S5000x128 j = FloatOps.mulf (d (tileNode j)) (d (tileNode j)) :=
    broadcastTo_apply (mulf d d) broadcasts_S5000x1_S5000x128 j (tileNode j) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])
  have hb : broadcastTo S5000x128 b broadcasts_S1x128_S5000x128 j = b (tileChannel j) :=
    broadcastTo_apply b broadcasts_S1x128_S5000x128 j (tileChannel j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  show FloatOps.maximumf (FloatOps.addf (FloatOps.addf (a j) (FloatOps.mulf (broadcastTo S5000x128 (mulf d d) broadcasts_S5000x1_S5000x128 j) (x j)))
      (broadcastTo S5000x128 b broadcasts_S1x128_S5000x128 j)) (FloatOps.ofBits .f32 0x00000000#32) = _
  rw [hd, hb]

variable (V : (c : Dev nD) → (b : Ref sig .tc) → Buf (Elt F) ((c : Thread nD τ).loc b))

/-- The printed index maps over the grid: the three row-tiled inputs and the result move down the rows together,
    one tile per point; the per-channel row stays put; no window moves along the columns. -/
theorem tile_positions : ∀ t : Fin cfg1.N, win1_0.index t (0 : Fin 2) = win1_4.index t (0 : Fin 2)
    ∧ win1_1.index t (0 : Fin 2) = win1_4.index t (0 : Fin 2)
    ∧ win1_2.index t (0 : Fin 2) = win1_4.index t (0 : Fin 2)
    ∧ win1_0.index t (1 : Fin 2) = 0 ∧ win1_1.index t (1 : Fin 2) = 0 ∧ win1_2.index t (1 : Fin 2) = 0
    ∧ win1_3.index t (0 : Fin 2) = 0 ∧ win1_3.index t (1 : Fin 2) = 0
    ∧ win1_4.index t (1 : Fin 2) = 0
    ∧ win1_4.index t (0 : Fin 2) = t.val :=
  (by decide +kernel : ∀ t : Fin grid1.N, _)

/-- What point `t` writes back is tile `t` of the combination of the four arrays as the region found them. -/
theorem written_back (c : Dev nD) (t : Fin cfg1.N) :
    (dat1 V c).flushed 4 t = ((cfg1.win 4).blk t).view.read (Elt F) (combine (V c main_v39) (V c main_v4) (V c main_v40) (V c main_v41)) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets, View.ld_unit_zero (S := S1x128) zeroOffsets]
  obtain ⟨e0, e1, e2, e3, e4, e5, e6, e7, e8, e9⟩ := tile_positions t
  funext j
  refine (tile_entry (iblk1 V c 2 t) (iblk1 V c 0 t) (iblk1 V c 1 t) (iblk1 V c 3 t) j).trans ?_
  show FloatOps.maximumf (FloatOps.addf (FloatOps.addf (V c main_v39 (((cfg1.win 0).blk t).view.emb j))
        (FloatOps.mulf (FloatOps.mulf (V c main_v40 (((cfg1.win 2).blk t).view.emb (tileNode j))) (V c main_v40 (((cfg1.win 2).blk t).view.emb (tileNode j))))
          (V c main_v4 (((cfg1.win 1).blk t).view.emb j))))
        (V c main_v41 (((cfg1.win 3).blk t).view.emb (tileChannel j)))) (FloatOps.ofBits .f32 0x00000000#32)
    = FloatOps.maximumf (FloatOps.addf (FloatOps.addf (V c main_v39 (((cfg1.win 4).blk t).view.emb j))
        (FloatOps.mulf (FloatOps.mulf (V c main_v40 (ofNode (((cfg1.win 4).blk t).view.emb j))) (V c main_v40 (ofNode (((cfg1.win 4).blk t).view.emb j))))
          (V c main_v4 (((cfg1.win 4).blk t).view.emb j))))
        (V c main_v41 (ofChannel (((cfg1.win 4).blk t).view.emb j)))) (FloatOps.ofBits .f32 0x00000000#32)
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (tileNode j) = ofNode (((cfg1.win 4).blk t).view.emb j) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (tileChannel j) = ofChannel (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [h0, h1, h2, h3]

/-- An entry of the result array lies in point `t`'s tile iff each coordinate lies in the tile's range. -/
theorem in_tile (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42).slice (win1_4.rect t)).set ↔ _
  rw [View.set_slice_whole, Rect.mem_set_unit]
  exact Iff.rfl

/-- Every entry of the result is in some point's tile: row r is in tile r / 5000. -/
theorem tiles_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have ht : (i 0).val / 5000 < grid1.N := by rw [hN]; omega
  refine ⟨⟨(i 0).val / 5000, ht⟩, flush1_4 _, ?_⟩
  obtain ⟨e0, e1, e2, e3, e4, e5, e6, e7, e8, e9⟩ := tile_positions ⟨(i 0).val / 5000, ht⟩
  rw [in_tile]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e9]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e8]; omega

/-- After the region the result array is the combination of the four arrays as the region found them. -/
theorem value (c : Dev nD) : (dat1 V c).arrAt 4 cfg1.N = combine (V c main_v39) (V c main_v4) (V c main_v40) (V c main_v41) :=
  (dat1 V c).arrAt_eq_of_cover 4 (combine (V c main_v39) (V c main_v4) (V c main_v40) (V c main_v41)) (fun t _ => written_back V c t) (tiles_cover)

end Cert.KernelIdeal.Combine1

end
-- ==== Proof.Combine3.lean ====
/-
  Region 3 of the kernel: the row-tiled combination and clamp, read as ONE function of its four arrays.

  The grid has 20 points; point t holds rows 5000·t … 5000·t + 4999 of the aggregated messages, of the projected
  features and of the per-node column dinv, the whole per-channel row b, and writes the same rows of the result.
  Inside a tile every entry is  max((agg + (dinv · dinv) · xw) + b, 0)  with dinv read at the entry's row and b at
  its column. The tiles cover the result, so after the region the result array is `Cert.Gcn.combine` of the four
  arrays as the region found them (the contents at entry are a parameter `V`). Only the instance's own scalar
  operations occur, so this holds at every instance.
-/
import proofs.«150629_j3307124818507_1_alg».proof.Proof.Gen.KernelIdeal.Frame
import proofs.«150629_j3307124818507_1_alg».proof.Proof.Spec
import Idealize.ShloMosaic.Lib.Pipeline.Value
import Idealize.ShloMosaic.Lib.ValueIdx

set_option maxRecDepth 16384

noncomputable section

namespace Cert.KernelIdeal.Combine3

open Cert.KernelIdeal Cert.KernelIdeal.Gen Cert.Gcn
open Idealize.ShloMosaic Idealize.ShloMosaic.TcCoe Idealize.SL.Sem
open Idealize.ShloMosaic.Pipeline (Dat Cfg Window)

variable {F : FTy → Type} [FloatOps F]

theorem zeroOffsets : (![0, 0] : Fin 2 → Nat) = fun _ => 0 := funext fun a => by fin_cases a <;> rfl

/-- Inside a tile: the entry of the per-node column block that belongs to the row of `j`. -/
abbrev tileNode (j : S5000x128.Idx) : S5000x1.Idx := fun a => match a with
  | ⟨0, _⟩ => ⟨(j 0).val, (j 0).isLt⟩
  | ⟨1, _⟩ => ⟨0, Nat.one_pos⟩
/-- The entry of the per-channel row that belongs to the column of `j`. -/
abbrev tileChannel (j : S5000x128.Idx) : S1x128.Idx := fun a => match a with
  | ⟨0, _⟩ => ⟨0, Nat.one_pos⟩
  | ⟨1, _⟩ => ⟨(j 1).val, (j 1).isLt⟩

/-- The body's one stored value at an entry of the tile. -/
theorem tile_entry (d : Vec F S5000x1 .f32) (a x : Vec F S5000x128 .f32) (b : Vec F S1x128 .f32) (j : S5000x128.Idx) :
    k3_pay1 (F := F) d a x b j
      = FloatOps.maximumf (FloatOps.addf (FloatOps.addf (a j) (FloatOps.mulf (FloatOps.mulf (d (tileNode j)) (d (tileNode j))) (x j))) (b (tileChannel j)))
          (FloatOps.ofBits .f32 0x00000000#32) := by
  unfold k3_pay1
  simp only [shapeCast_self]
  have hd : broadcastTo S5000x128 (mulf d d) broadcasts_S5000x1_S5000x128 j = FloatOps.mulf (d (tileNode j)) (d (tileNode j)) :=
    broadcastTo_apply (mulf d d) broadcasts_S5000x1_S5000x128 j (tileNode j) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])
  have hb : broadcastTo S5000x128 b broadcasts_S1x128_S5000x128 j = b (tileChannel j) :=
    broadcastTo_apply b broadcasts_S1x128_S5000x128 j (tileChannel j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  show FloatOps.maximumf (FloatOps.addf (FloatOps.addf (a j) (FloatOps.mulf (broadcastTo S5000x128 (mulf d d) broadcasts_S5000x1_S5000x128 j) (x j)))
      (broadcastTo S5000x128 b broadcasts_S1x128_S5000x128 j)) (FloatOps.ofBits .f32 0x00000000#32) = _
  rw [hd, hb]

variable (V : (c : Dev nD) → (b : Ref sig .tc) → Buf (Elt F) ((c : Thread nD τ).loc b))

/-- The printed index maps over the grid: the three row-tiled inputs and the result move down the rows together,
    one tile per point; the per-channel row stays put; no window moves along the columns. -/
theorem tile_positions : ∀ t : Fin cfg3.N, win3_0.index t (0 : Fin 2) = win3_4.index t (0 : Fin 2)
    ∧ win3_1.index t (0 : Fin 2) = win3_4.index t (0 : Fin 2)
    ∧ win3_2.index t (0 : Fin 2) = win3_4.index t (0 : Fin 2)
    ∧ win3_0.index t (1 : Fin 2) = 0 ∧ win3_1.index t (1 : Fin 2) = 0 ∧ win3_2.index t (1 : Fin 2) = 0
    ∧ win3_3.index t (0 : Fin 2) = 0 ∧ win3_3.index t (1 : Fin 2) = 0
    ∧ win3_4.index t (1 : Fin 2) = 0
    ∧ win3_4.index t (0 : Fin 2) = t.val :=
  (by decide +kernel : ∀ t : Fin grid3.N, _)

/-- What point `t` writes back is tile `t` of the combination of the four arrays as the region found them. -/
theorem written_back (c : Dev nD) (t : Fin cfg3.N) :
    (dat3 V c).flushed 4 t = ((cfg3.win 4).blk t).view.read (Elt F) (combine (V c main_v78) (V c main_v43) (V c main_v79) (V c main_v80)) := by
  show (cfg3.win 4).cut (grid3.coords t) ((dat3 V c).after 4 t) = _
  rw [after3_4]
  unfold out3_4
  rw [View.canon_unit_zero zeroOffsets]
  simp only [View.ld_unit_zero (S := S5000x128) zeroOffsets, View.ld_unit_zero (S := S5000x1) zeroOffsets, View.ld_unit_zero (S := S1x128) zeroOffsets]
  obtain ⟨e0, e1, e2, e3, e4, e5, e6, e7, e8, e9⟩ := tile_positions t
  funext j
  refine (tile_entry (iblk3 V c 2 t) (iblk3 V c 0 t) (iblk3 V c 1 t) (iblk3 V c 3 t) j).trans ?_
  show FloatOps.maximumf (FloatOps.addf (FloatOps.addf (V c main_v78 (((cfg3.win 0).blk t).view.emb j))
        (FloatOps.mulf (FloatOps.mulf (V c main_v79 (((cfg3.win 2).blk t).view.emb (tileNode j))) (V c main_v79 (((cfg3.win 2).blk t).view.emb (tileNode j))))
          (V c main_v43 (((cfg3.win 1).blk t).view.emb j))))
        (V c main_v80 (((cfg3.win 3).blk t).view.emb (tileChannel j)))) (FloatOps.ofBits .f32 0x00000000#32)
    = FloatOps.maximumf (FloatOps.addf (FloatOps.addf (V c main_v78 (((cfg3.win 4).blk t).view.emb j))
        (FloatOps.mulf (FloatOps.mulf (V c main_v79 (ofNode (((cfg3.win 4).blk t).view.emb j))) (V c main_v79 (ofNode (((cfg3.win 4).blk t).view.emb j))))
          (V c main_v43 (((cfg3.win 4).blk t).view.emb j))))
        (V c main_v80 (ofChannel (((cfg3.win 4).blk t).view.emb j)))) (FloatOps.ofBits .f32 0x00000000#32)
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb (tileNode j) = ofNode (((cfg3.win 4).blk t).view.emb j) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (tileChannel j) = ofChannel (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  rw [h0, h1, h2, h3]

/-- An entry of the result array lies in point `t`'s tile iff each coordinate lies in the tile's range. -/
theorem in_tile (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v81).slice (win3_4.rect t)).set ↔ _
  rw [View.set_slice_whole, Rect.mem_set_unit]
  exact Iff.rfl

/-- Every entry of the result is in some point's tile: row r is in tile r / 5000. -/
theorem tiles_cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_3
  have ht : (i 0).val / 5000 < grid3.N := by rw [hN]; omega
  refine ⟨⟨(i 0).val / 5000, ht⟩, flush3_4 _, ?_⟩
  obtain ⟨e0, e1, e2, e3, e4, e5, e6, e7, e8, e9⟩ := tile_positions ⟨(i 0).val / 5000, ht⟩
  rw [in_tile]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e9]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val ∧ (i 1).val < win3_4.index ⟨(i 0).val / 5000, ht⟩ (1 : Fin 2) * 128 + 128
    rw [e8]; omega

/-- After the region the result array is the combination of the four arrays as the region found them. -/
theorem value (c : Dev nD) : (dat3 V c).arrAt 4 cfg3.N = combine (V c main_v78) (V c main_v43) (V c main_v79) (V c main_v80) :=
  (dat3 V c).arrAt_eq_of_cover 4 (combine (V c main_v78) (V c main_v43) (V c main_v79) (V c main_v80)) (fun t _ => written_back V c t) (tiles_cover)

end Cert.KernelIdeal.Combine3

end
-- ==== Proof.Combine5.lean ====
/-
  Region 5 of the kernel: the row-tiled combination and clamp, read as ONE function of its four arrays.

  The grid has 20 points; point t holds rows 5000·t … 5000·t + 4999 of the aggregated messages, of the projected
  features and of the per-node column dinv, the whole per-channel row b, and writes the same rows of the result.
  Inside a tile every entry is  max((agg + (dinv · dinv) · xw) + b, 0)  with dinv read at the entry's row and b at
  its column. The tiles cover the result, so after the region the result array is `Cert.Gcn.combine` of the four
  arrays as the region found them (the contents at entry are a parameter `V`). Only the instance's own scalar
  operations occur, so this holds at every instance.
-/
import proofs.«150629_j3307124818507_1_alg».proof.Proof.Gen.KernelIdeal.Frame
import proofs.«150629_j3307124818507_1_alg».proof.Proof.Spec
import Idealize.ShloMosaic.Lib.Pipeline.Value
import Idealize.ShloMosaic.Lib.ValueIdx

set_option maxRecDepth 16384

noncomputable section

namespace Cert.KernelIdeal.Combine5

open Cert.KernelIdeal Cert.KernelIdeal.Gen Cert.Gcn
open Idealize.ShloMosaic Idealize.ShloMosaic.TcCoe Idealize.SL.Sem
open Idealize.ShloMosaic.Pipeline (Dat Cfg Window)

variable {F : FTy → Type} [FloatOps F]

theorem zeroOffsets : (![0, 0] : Fin 2 → Nat) = fun _ => 0 := funext fun a => by fin_cases a <;> rfl

/-- Inside a tile: the entry of the per-node column block that belongs to the row of `j`. -/
abbrev tileNode (j : S5000x128.Idx) : S5000x1.Idx := fun a => match a with
  | ⟨0, _⟩ => ⟨(j 0).val, (j 0).isLt⟩
  | ⟨1, _⟩ => ⟨0, Nat.one_pos⟩
/-- The entry of the per-channel row that belongs to the column of `j`. -/
abbrev tileChannel (j : S5000x128.Idx) : S1x128.Idx := fun a => match a with
  | ⟨0, _⟩ => ⟨0, Nat.one_pos⟩
  | ⟨1, _⟩ => ⟨(j 1).val, (j 1).isLt⟩

/-- The body's one stored value at an entry of the tile. -/
theorem tile_entry (d : Vec F S5000x1 .f32) (a x : Vec F S5000x128 .f32) (b : Vec F S1x128 .f32) (j : S5000x128.Idx) :
    k5_pay1 (F := F) d a x b j
      = FloatOps.maximumf (FloatOps.addf (FloatOps.addf (a j) (FloatOps.mulf (FloatOps.mulf (d (tileNode j)) (d (tileNode j))) (x j))) (b (tileChannel j)))
          (FloatOps.ofBits .f32 0x00000000#32) := by
  unfold k5_pay1
  simp only [shapeCast_self]
  have hd : broadcastTo S5000x128 (mulf d d) broadcasts_S5000x1_S5000x128 j = FloatOps.mulf (d (tileNode j)) (d (tileNode j)) :=
    broadcastTo_apply (mulf d d) broadcasts_S5000x1_S5000x128 j (tileNode j) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])
  have hb : broadcastTo S5000x128 b broadcasts_S1x128_S5000x128 j = b (tileChannel j) :=
    broadcastTo_apply b broadcasts_S1x128_S5000x128 j (tileChannel j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  show FloatOps.maximumf (FloatOps.addf (FloatOps.addf (a j) (FloatOps.mulf (broadcastTo S5000x128 (mulf d d) broadcasts_S5000x1_S5000x128 j) (x j)))
      (broadcastTo S5000x128 b broadcasts_S1x128_S5000x128 j)) (FloatOps.ofBits .f32 0x00000000#32) = _
  rw [hd, hb]

variable (V : (c : Dev nD) → (b : Ref sig .tc) → Buf (Elt F) ((c : Thread nD τ).loc b))

/-- The printed index maps over the grid: the three row-tiled inputs and the result move down the rows together,
    one tile per point; the per-channel row stays put; no window moves along the columns. -/
theorem tile_positions : ∀ t : Fin cfg5.N, win5_0.index t (0 : Fin 2) = win5_4.index t (0 : Fin 2)
    ∧ win5_1.index t (0 : Fin 2) = win5_4.index t (0 : Fin 2)
    ∧ win5_2.index t (0 : Fin 2) = win5_4.index t (0 : Fin 2)
    ∧ win5_0.index t (1 : Fin 2) = 0 ∧ win5_1.index t (1 : Fin 2) = 0 ∧ win5_2.index t (1 : Fin 2) = 0
    ∧ win5_3.index t (0 : Fin 2) = 0 ∧ win5_3.index t (1 : Fin 2) = 0
    ∧ win5_4.index t (1 : Fin 2) = 0
    ∧ win5_4.index t (0 : Fin 2) = t.val :=
  (by decide +kernel : ∀ t : Fin grid5.N, _)

/-- What point `t` writes back is tile `t` of the combination of the four arrays as the region found them. -/
theorem written_back (c : Dev nD) (t : Fin cfg5.N) :
    (dat5 V c).flushed 4 t = ((cfg5.win 4).blk t).view.read (Elt F) (combine (V c main_v117) (V c main_v82) (V c main_v118) (V c main_v119)) := by
  show (cfg5.win 4).cut (grid5.coords t) ((dat5 V c).after 4 t) = _
  rw [after5_4]
  unfold out5_4
  rw [View.canon_unit_zero zeroOffsets]
  simp only [View.ld_unit_zero (S := S5000x128) zeroOffsets, View.ld_unit_zero (S := S5000x1) zeroOffsets, View.ld_unit_zero (S := S1x128) zeroOffsets]
  obtain ⟨e0, e1, e2, e3, e4, e5, e6, e7, e8, e9⟩ := tile_positions t
  funext j
  refine (tile_entry (iblk5 V c 2 t) (iblk5 V c 0 t) (iblk5 V c 1 t) (iblk5 V c 3 t) j).trans ?_
  show FloatOps.maximumf (FloatOps.addf (FloatOps.addf (V c main_v117 (((cfg5.win 0).blk t).view.emb j))
        (FloatOps.mulf (FloatOps.mulf (V c main_v118 (((cfg5.win 2).blk t).view.emb (tileNode j))) (V c main_v118 (((cfg5.win 2).blk t).view.emb (tileNode j))))
          (V c main_v82 (((cfg5.win 1).blk t).view.emb j))))
        (V c main_v119 (((cfg5.win 3).blk t).view.emb (tileChannel j)))) (FloatOps.ofBits .f32 0x00000000#32)
    = FloatOps.maximumf (FloatOps.addf (FloatOps.addf (V c main_v117 (((cfg5.win 4).blk t).view.emb j))
        (FloatOps.mulf (FloatOps.mulf (V c main_v118 (ofNode (((cfg5.win 4).blk t).view.emb j))) (V c main_v118 (ofNode (((cfg5.win 4).blk t).view.emb j))))
          (V c main_v82 (((cfg5.win 4).blk t).view.emb j))))
        (V c main_v119 (ofChannel (((cfg5.win 4).blk t).view.emb j)))) (FloatOps.ofBits .f32 0x00000000#32)
  have h0 : ((cfg5.win 0).blk t).view.emb j = ((cfg5.win 4).blk t).view.emb j := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 128 + 1 * (j 1).val = win5_4.index t (1 : Fin 2) * 128 + 1 * (j 1).val; omega
  have h1 : ((cfg5.win 1).blk t).view.emb j = ((cfg5.win 4).blk t).view.emb j := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 128 + 1 * (j 1).val = win5_4.index t (1 : Fin 2) * 128 + 1 * (j 1).val; omega
  have h2 : ((cfg5.win 2).blk t).view.emb (tileNode j) = ofNode (((cfg5.win 4).blk t).view.emb j) := by
    funext a; apply Fin.ext
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  have h3 : ((cfg5.win 3).blk t).view.emb (tileChannel j) = ofChannel (((cfg5.win 4).blk t).view.emb j) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_4.index t (1 : Fin 2) * 128 + 1 * (j 1).val; omega
  rw [h0, h1, h2, h3]

/-- An entry of the result array lies in point `t`'s tile iff each coordinate lies in the tile's range. -/
theorem in_tile (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v120).slice (win5_4.rect t)).set ↔ _
  rw [View.set_slice_whole, Rect.mem_set_unit]
  exact Iff.rfl

/-- Every entry of the result is in some point's tile: row r is in tile r / 5000. -/
theorem tiles_cover (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : grid5.N = 20 := N_5
  have ht : (i 0).val / 5000 < grid5.N := by rw [hN]; omega
  refine ⟨⟨(i 0).val / 5000, ht⟩, flush5_4 _, ?_⟩
  obtain ⟨e0, e1, e2, e3, e4, e5, e6, e7, e8, e9⟩ := tile_positions ⟨(i 0).val / 5000, ht⟩
  rw [in_tile]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [e9]; show (i 0).val / 5000 * 5000 ≤ (i 0).val ∧ (i 0).val < (i 0).val / 5000 * 5000 + 5000; omega
  | ⟨1, _⟩ =>
    show win5_4.index ⟨(i 0).val / 5000, ht⟩ (1 : Fin 2) * 128 ≤ (i 1).val ∧ (i 1).val < win5_4.index ⟨(i 0).val / 5000, ht⟩ (1 : Fin 2) * 128 + 128
    rw [e8]; omega

/-- After the region the result array is the combination of the four arrays as the region found them. -/
theorem value (c : Dev nD) : (dat5 V c).arrAt 4 cfg5.N = combine (V c main_v117) (V c main_v82) (V c main_v118) (V c main_v119) :=
  (dat5 V c).arrAt_eq_of_cover 4 (combine (V c main_v117) (V c main_v82) (V c main_v118) (V c main_v119)) (fun t _ => written_back V c t) (tiles_cover)

end Cert.KernelIdeal.Combine5

end
-- ==== Proof.RefLayer.lean ====
/-
  One graph-convolution layer of the reference as ONE function, and the reference's three layers as that function
  applied three times.

  The reference computes, per layer, with row / col the two rows of the edge list and ew the edge weights:
      xw   = h · W                                   (a host matrix product)
      dinv = rsqrt(segment_sum(ew, col) + 1)         (the inverse square root of the weighted in-degree plus one)
      norm = dinv[row] · ew · dinv[col]              (negative indices first moved into range, as jnp's indexing does)
      agg  = segment_sum(norm · xw[row], col)
      out  = max((agg + (dinv · dinv) · xw) + b, 0)
  The scatter-adds and gathers are carried as they are printed and never opened: both programs apply the very same
  host operations to the very same operands, so it is enough that the operands agree. Each definition below spells the
  reference's printed operations in the printed order; that the printed stages are these functions is then a matter
  of unfolding names.
-/
import proofs.«150629_j3307124818507_1_alg».proof.Proof.Gen.ReferenceIdeal.Read

set_option maxRecDepth 16384

noncomputable section

namespace Cert.ReferenceIdeal.Layer

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- A node index as jnp reads it: a negative one counts from the end. -/
def wrapIdx (ix : (⟨S1600000, .i32⟩ : BufTy).Contents (Elt F)) : (⟨S1600000, .i32⟩ : BufTy).Contents (Elt F) :=
  select (cmpi .slt ix (broadcastInDim S1600000 ![] bcast_S_S1600000 (constantI S_ 32 0#32 : (⟨S_, .i32⟩ : BufTy).Contents (Elt F))))
    (addi ix (broadcastInDim S1600000 ![] bcast_S_S1600000 (constantI S_ 32 100000#32 : (⟨S_, .i32⟩ : BufTy).Contents (Elt F)))) ix

/-- dinv: the inverse square root of (the edge weights summed into their target nodes, plus one). -/
def degInv (col : (⟨S1600000, .i32⟩ : BufTy).Contents (Elt F)) (ew : (⟨S1600000, .f32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32 : (⟨S_, .f32⟩ : BufTy).Contents (Elt F)))
      (broadcastInDim S1600000x1 ![0] bcast_S1600000_S1600000x1_0 col) ew)
    (broadcastInDim S100000 ![] bcast_S_S100000 (constant S_ .f32 0x3F800000#32 : (⟨S_, .f32⟩ : BufTy).Contents (Elt F))))

/-- norm: per edge, dinv at its source times its weight times dinv at its target. -/
def edgeNorm (row col : (⟨S1600000, .i32⟩ : BufTy).Contents (Elt F)) (ew : (⟨S1600000, .f32⟩ : BufTy).Contents (Elt F)) : (⟨S1600000, .f32⟩ : BufTy).Contents (Elt F) :=
  mulf (mulf (Host.gather gather_S100000_S1600000x1_S1600000_n_0_n_n_0_1_1 (degInv col ew)
        (broadcastInDim S1600000x1 ![0] bcast_S1600000_S1600000x1_0 (wrapIdx row))) ew)
    (Host.gather gather_S100000_S1600000x1_S1600000_n_0_n_n_0_1_1 (degInv col ew)
        (broadcastInDim S1600000x1 ![0] bcast_S1600000_S1600000x1_0 (wrapIdx col)))

/-- agg: the normalized source rows of xw summed into their target nodes. -/
def aggregate (row col : (⟨S1600000, .i32⟩ : BufTy).Contents (Elt F)) (ew : (⟨S1600000, .f32⟩ : BufTy).Contents (Elt F)) (xw : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32 : (⟨S_, .f32⟩ : BufTy).Contents (Elt F)))
    (broadcastInDim S1600000x1 ![0] bcast_S1600000_S1600000x1_0 col)
    (mulf (broadcastInDim S1600000x128 ![0, 1] bcast_S1600000x1_S1600000x128_0_1
            (broadcastInDim S1600000x1 ![0] bcast_S1600000_S1600000x1_0 (edgeNorm row col ew)))
          (Host.gather gather_S100000x128_S1600000x1_S1600000x128_1_0_n_n_0_1_1128 xw
            (broadcastInDim S1600000x1 ![0] bcast_S1600000_S1600000x1_0 (wrapIdx row))))

/-- The layer's last, entry-by-entry part: max((agg + (dinv · dinv) · xw) + b, 0), by broadcasts of whole arrays. -/
def finish (agg xw : (⟨S100000x128, .f32⟩ : BufTy).Contents (Elt F)) (dinv : (⟨S100000, .f32⟩ : BufTy).Contents (Elt F)) (b : (⟨S128, .f32⟩ : BufTy).Contents (Elt F)) : (⟨S100000x128, .f32⟩ : BufTy).Contents (Elt F) :=
  maximumf
    (addf (addf agg (mulf (broadcastInDim S100000x128 ![0, 1] bcast_S100000x1_S100000x128_0_1
                            (broadcastInDim S100000x1 ![0] bcast_S100000_S100000x1_0 (mulf dinv dinv))) xw))
          (broadcastInDim S100000x128 ![0, 1] bcast_S1x128_S100000x128_0_1 (broadcastInDim S1x128 ![1] bcast_S128_S1x128_1 b)))
    (broadcastInDim S100000x128 ![] bcast_S_S100000x128 (constant S_ .f32 0x00000000#32 : (⟨S_, .f32⟩ : BufTy).Contents (Elt F)))

/-- One layer from the projected features xw. -/
def layerOf (row col : (⟨S1600000, .i32⟩ : BufTy).Contents (Elt F)) (ew : (⟨S1600000, .f32⟩ : BufTy).Contents (Elt F)) (xw : (⟨S100000x128, .f32⟩ : BufTy).Contents (Elt F)) (b : (⟨S128, .f32⟩ : BufTy).Contents (Elt F)) : (⟨S100000x128, .f32⟩ : BufTy).Contents (Elt F) :=
  finish (aggregate row col ew xw) xw (degInv col ew) b

/-- One layer of the reference: project by a host matrix product, then `layerOf`. -/
def layer (row col : (⟨S1600000, .i32⟩ : BufTy).Contents (Elt F)) (ew : (⟨S1600000, .f32⟩ : BufTy).Contents (Elt F)) (h : (⟨S100000x128, .f32⟩ : BufTy).Contents (Elt F)) (w : (⟨S128x128, .f32⟩ : BufTy).Contents (Elt F)) (b : (⟨S128, .f32⟩ : BufTy).Contents (Elt F)) : (⟨S100000x128, .f32⟩ : BufTy).Contents (Elt F) :=
  layerOf row col ew (Host.dotGeneral dot_S100000x128_S128x128_S100000x128_1_0_0_1_n_n none h w) b

section Stages
variable (x0 : (⟨S100000x128, .f32⟩ : BufTy).Contents (Elt F)) (x1 : (⟨S2x1600000, .i32⟩ : BufTy).Contents (Elt F)) (x2 : (⟨S1600000, .f32⟩ : BufTy).Contents (Elt F))
  (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
  (x7 : (⟨S128x128, .f32⟩ : BufTy).Contents (Elt F)) (x8 : (⟨S128, .f32⟩ : BufTy).Contents (Elt F))

/-- The reference's first activation is the layer of the input features. -/
theorem first : val_main_v48 (F := F) x0 x1 x2 x3 x4 = layer (val_main_v1 (F := F) x1) (val_main_v3 (F := F) x1) x2 x0 x3 x4 := rfl

/-- Its second activation is the layer of the first. -/
theorem second : val_main_v93 (F := F) x0 x1 x2 x3 x4 x5 x6
    = layer (val_main_v1 (F := F) x1) (val_main_v3 (F := F) x1) x2 (val_main_v48 (F := F) x0 x1 x2 x3 x4) x5 x6 := rfl

/-- Its result is the layer of the second. -/
theorem third : val_main_v138 (F := F) x0 x1 x2 x3 x4 x5 x6 x7 x8
    = layer (val_main_v1 (F := F) x1) (val_main_v3 (F := F) x1) x2 (val_main_v93 (F := F) x0 x1 x2 x3 x4 x5 x6) x7 x8 := rfl

end Stages

end Cert.ReferenceIdeal.Layer

end
-- ==== Proof.KernelValue.lean ====
/-
  What the kernel's result buffer holds at the return, as a function of the arguments.

  The contents of the TensorCore's buffers at the ten segment boundaries of @main are a fold (`Gen.W1` … `Gen.W10`).
  This module walks the fold once. A buffer that a segment does not write keeps its contents across it: the two
  index vectors row and col (written once, by the first four host operations), the edge weights, the weights and the
  biases are read again and again, each time still holding what they held at first. A matrix-product region leaves
  `product` of its two arrays in its result, a combine region `combine` of its four (the region modules); a stretch
  of host operations leaves, in the buffers the next region reads, the aggregation `aggregate` of the projected
  features, the column of dinv and the row of b — the same host operations, applied to the same operands, as the
  reference's (RefLayer), carried as they are and never opened.
  So layer after layer:   xw = product h W;   agg = aggregate row col ew xw;   h' = combine agg xw dinv b.
-/
import proofs.«150629_j3307124818507_1_alg».proof.Proof.Gen.KernelIdeal.Frame
import proofs.«150629_j3307124818507_1_alg».proof.Proof.Product0
import proofs.«150629_j3307124818507_1_alg».proof.Proof.Product2
import proofs.«150629_j3307124818507_1_alg».proof.Proof.Product4
import proofs.«150629_j3307124818507_1_alg».proof.Proof.Combine1
import proofs.«150629_j3307124818507_1_alg».proof.Proof.Combine3
import proofs.«150629_j3307124818507_1_alg».proof.Proof.Combine5
import proofs.«150629_j3307124818507_1_alg».proof.Proof.RefLayer
import Idealize.ShloMosaic.Lib.StableHlo.Run

set_option maxRecDepth 16384

noncomputable section

namespace Cert.KernelIdeal.GcnValue

open Cert.KernelIdeal Cert.KernelIdeal.Gen Cert.Gcn
open Idealize.ShloMosaic Idealize.ShloMosaic.TcCoe Idealize.SL.Sem
open Cert.ReferenceIdeal.Layer (aggregate degInv)

/-- A buffer that no operation of a stretch of host operations writes keeps its contents across the stretch. -/
macro "host_keep " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## The arguments as launched, and the values of the three layers -/

/-- The node features. -/
abbrev feat : (⟨S100000x128, .f32⟩ : BufTy).Contents (Elt Ideal) := m ((c : Thread nD τ).loc main_arg0)
/-- The edge list: row 0 the sources, row 1 the targets. -/
abbrev edges : (⟨S2x1600000, .i32⟩ : BufTy).Contents (Elt Ideal) := m ((c : Thread nD τ).loc main_arg1)
/-- The edge weights. -/
abbrev ew : (⟨S1600000, .f32⟩ : BufTy).Contents (Elt Ideal) := m ((c : Thread nD τ).loc main_arg2)
abbrev w1 : (⟨S128x128, .f32⟩ : BufTy).Contents (Elt Ideal) := m ((c : Thread nD τ).loc main_arg3)
abbrev b1 : (⟨S128, .f32⟩ : BufTy).Contents (Elt Ideal) := m ((c : Thread nD τ).loc main_arg4)
abbrev w2 : (⟨S128x128, .f32⟩ : BufTy).Contents (Elt Ideal) := m ((c : Thread nD τ).loc main_arg5)
abbrev b2 : (⟨S128, .f32⟩ : BufTy).Contents (Elt Ideal) := m ((c : Thread nD τ).loc main_arg6)
abbrev w3 : (⟨S128x128, .f32⟩ : BufTy).Contents (Elt Ideal) := m ((c : Thread nD τ).loc main_arg7)
abbrev b3 : (⟨S128, .f32⟩ : BufTy).Contents (Elt Ideal) := m ((c : Thread nD τ).loc main_arg8)
/-- The sources and the targets of the edges, sliced out of the edge list. -/
abbrev row : (⟨S1600000, .i32⟩ : BufTy).Contents (Elt Ideal) := Cert.ReferenceIdeal.Read.val_main_v1 (F := Ideal) (edges m c)
abbrev col : (⟨S1600000, .i32⟩ : BufTy).Contents (Elt Ideal) := Cert.ReferenceIdeal.Read.val_main_v3 (F := Ideal) (edges m c)
/-- dinv as the column the combine regions read. -/
abbrev dcol : (⟨S100000x1, .f32⟩ : BufTy).Contents (Elt Ideal) := shapeCast S100000x1 (degInv (F := Ideal) (col m c) (ew m c)) shapeCasts_S100000_S100000x1
/-- A bias as the row the combine regions read. -/
abbrev brow (b : (⟨S128, .f32⟩ : BufTy).Contents (Elt Ideal)) : (⟨S1x128, .f32⟩ : BufTy).Contents (Elt Ideal) := shapeCast S1x128 b shapeCasts_S128_S1x128
abbrev xw1 : (⟨S100000x128, .f32⟩ : BufTy).Contents (Elt Ideal) := product (feat m c) (w1 m c)
abbrev agg1 : (⟨S100000x128, .f32⟩ : BufTy).Contents (Elt Ideal) := aggregate (F := Ideal) (row m c) (col m c) (ew m c) (xw1 m c)
abbrev h1 : (⟨S100000x128, .f32⟩ : BufTy).Contents (Elt Ideal) := combine (agg1 m c) (xw1 m c) (dcol m c) (brow (b1 m c))
abbrev xw2 : (⟨S100000x128, .f32⟩ : BufTy).Contents (Elt Ideal) := product (h1 m c) (w2 m c)
abbrev agg2 : (⟨S100000x128, .f32⟩ : BufTy).Contents (Elt Ideal) := aggregate (F := Ideal) (row m c) (col m c) (ew m c) (xw2 m c)
abbrev h2 : (⟨S100000x128, .f32⟩ : BufTy).Contents (Elt Ideal) := combine (agg2 m c) (xw2 m c) (dcol m c) (brow (b2 m c))
abbrev xw3 : (⟨S100000x128, .f32⟩ : BufTy).Contents (Elt Ideal) := product (h2 m c) (w3 m c)
abbrev agg3 : (⟨S100000x128, .f32⟩ : BufTy).Contents (Elt Ideal) := aggregate (F := Ideal) (row m c) (col m c) (ew m c) (xw3 m c)
abbrev h3 : (⟨S100000x128, .f32⟩ : BufTy).Contents (Elt Ideal) := combine (agg3 m c) (xw3 m c) (dcol m c) (brow (b3 m c))

/-! ## Buffers a segment does not write keep their contents across it -/

theorem keep1_main_arg0 : W1 m ρ c (Proc.devRef .tc main_arg0) = W0 m ρ c (Proc.devRef .tc main_arg0) := by host_keep hostOps0 main_arg0
theorem keep1_main_arg3 : W1 m ρ c (Proc.devRef .tc main_arg3) = W0 m ρ c (Proc.devRef .tc main_arg3) := by host_keep hostOps0 main_arg3
theorem keep1_main_arg2 : W1 m ρ c (Proc.devRef .tc main_arg2) = W0 m ρ c (Proc.devRef .tc main_arg2) := by host_keep hostOps0 main_arg2
theorem keep1_main_arg4 : W1 m ρ c (Proc.devRef .tc main_arg4) = W0 m ρ c (Proc.devRef .tc main_arg4) := by host_keep hostOps0 main_arg4
theorem keep1_main_arg5 : W1 m ρ c (Proc.devRef .tc main_arg5) = W0 m ρ c (Proc.devRef .tc main_arg5) := by host_keep hostOps0 main_arg5
theorem keep1_main_arg6 : W1 m ρ c (Proc.devRef .tc main_arg6) = W0 m ρ c (Proc.devRef .tc main_arg6) := by host_keep hostOps0 main_arg6
theorem keep1_main_arg7 : W1 m ρ c (Proc.devRef .tc main_arg7) = W0 m ρ c (Proc.devRef .tc main_arg7) := by host_keep hostOps0 main_arg7
theorem keep1_main_arg8 : W1 m ρ c (Proc.devRef .tc main_arg8) = W0 m ρ c (Proc.devRef .tc main_arg8) := by host_keep hostOps0 main_arg8
theorem keep2_main_v1 : W2 m ρ c (Proc.devRef .tc main_v1) = W1 m ρ c (Proc.devRef .tc main_v1) := W2_of_ne m ρ c main_v1 (by decide)
theorem keep2_main_v3 : W2 m ρ c (Proc.devRef .tc main_v3) = W1 m ρ c (Proc.devRef .tc main_v3) := W2_of_ne m ρ c main_v3 (by decide)
theorem keep2_main_arg2 : W2 m ρ c (Proc.devRef .tc main_arg2) = W1 m ρ c (Proc.devRef .tc main_arg2) := W2_of_ne m ρ c main_arg2 (by decide)
theorem keep2_main_arg4 : W2 m ρ c (Proc.devRef .tc main_arg4) = W1 m ρ c (Proc.devRef .tc main_arg4) := W2_of_ne m ρ c main_arg4 (by decide)
theorem keep2_main_arg5 : W2 m ρ c (Proc.devRef .tc main_arg5) = W1 m ρ c (Proc.devRef .tc main_arg5) := W2_of_ne m ρ c main_arg5 (by decide)
theorem keep2_main_arg6 : W2 m ρ c (Proc.devRef .tc main_arg6) = W1 m ρ c (Proc.devRef .tc main_arg6) := W2_of_ne m ρ c main_arg6 (by decide)
theorem keep2_main_arg7 : W2 m ρ c (Proc.devRef .tc main_arg7) = W1 m ρ c (Proc.devRef .tc main_arg7) := W2_of_ne m ρ c main_arg7 (by decide)
theorem keep2_main_arg8 : W2 m ρ c (Proc.devRef .tc main_arg8) = W1 m ρ c (Proc.devRef .tc main_arg8) := W2_of_ne m ρ c main_arg8 (by decide)
theorem keep3_main_v4 : W3 m ρ c (Proc.devRef .tc main_v4) = W2 m ρ c (Proc.devRef .tc main_v4) := by host_keep hostOps1 main_v4
theorem keep3_main_arg5 : W3 m ρ c (Proc.devRef .tc main_arg5) = W2 m ρ c (Proc.devRef .tc main_arg5) := by host_keep hostOps1 main_arg5
theorem keep3_main_v1 : W3 m ρ c (Proc.devRef .tc main_v1) = W2 m ρ c (Proc.devRef .tc main_v1) := by host_keep hostOps1 main_v1
theorem keep3_main_v3 : W3 m ρ c (Proc.devRef .tc main_v3) = W2 m ρ c (Proc.devRef .tc main_v3) := by host_keep hostOps1 main_v3
theorem keep3_main_arg2 : W3 m ρ c (Proc.devRef .tc main_arg2) = W2 m ρ c (Proc.devRef .tc main_arg2) := by host_keep hostOps1 main_arg2
theorem keep3_main_arg6 : W3 m ρ c (Proc.devRef .tc main_arg6) = W2 m ρ c (Proc.devRef .tc main_arg6) := by host_keep hostOps1 main_arg6
theorem keep3_main_arg7 : W3 m ρ c (Proc.devRef .tc main_arg7) = W2 m ρ c (Proc.devRef .tc main_arg7) := by host_keep hostOps1 main_arg7
theorem keep3_main_arg8 : W3 m ρ c (Proc.devRef .tc main_arg8) = W2 m ρ c (Proc.devRef .tc main_arg8) := by host_keep hostOps1 main_arg8
theorem keep4_main_arg5 : W4 m ρ c (Proc.devRef .tc main_arg5) = W3 m ρ c (Proc.devRef .tc main_arg5) := W4_of_ne m ρ c main_arg5 (by decide)
theorem keep4_main_v1 : W4 m ρ c (Proc.devRef .tc main_v1) = W3 m ρ c (Proc.devRef .tc main_v1) := W4_of_ne m ρ c main_v1 (by decide)
theorem keep4_main_v3 : W4 m ρ c (Proc.devRef .tc main_v3) = W3 m ρ c (Proc.devRef .tc main_v3) := W4_of_ne m ρ c main_v3 (by decide)
theorem keep4_main_arg2 : W4 m ρ c (Proc.devRef .tc main_arg2) = W3 m ρ c (Proc.devRef .tc main_arg2) := W4_of_ne m ρ c main_arg2 (by decide)
theorem keep4_main_arg6 : W4 m ρ c (Proc.devRef .tc main_arg6) = W3 m ρ c (Proc.devRef .tc main_arg6) := W4_of_ne m ρ c main_arg6 (by decide)
theorem keep4_main_arg7 : W4 m ρ c (Proc.devRef .tc main_arg7) = W3 m ρ c (Proc.devRef .tc main_arg7) := W4_of_ne m ρ c main_arg7 (by decide)
theorem keep4_main_arg8 : W4 m ρ c (Proc.devRef .tc main_arg8) = W3 m ρ c (Proc.devRef .tc main_arg8) := W4_of_ne m ρ c main_arg8 (by decide)
theorem keep5_main_v1 : W5 m ρ c (Proc.devRef .tc main_v1) = W4 m ρ c (Proc.devRef .tc main_v1) := W5_of_ne m ρ c main_v1 (by decide)
theorem keep5_main_v3 : W5 m ρ c (Proc.devRef .tc main_v3) = W4 m ρ c (Proc.devRef .tc main_v3) := W5_of_ne m ρ c main_v3 (by decide)
theorem keep5_main_arg2 : W5 m ρ c (Proc.devRef .tc main_arg2) = W4 m ρ c (Proc.devRef .tc main_arg2) := W5_of_ne m ρ c main_arg2 (by decide)
theorem keep5_main_arg6 : W5 m ρ c (Proc.devRef .tc main_arg6) = W4 m ρ c (Proc.devRef .tc main_arg6) := W5_of_ne m ρ c main_arg6 (by decide)
theorem keep5_main_arg7 : W5 m ρ c (Proc.devRef .tc main_arg7) = W4 m ρ c (Proc.devRef .tc main_arg7) := W5_of_ne m ρ c main_arg7 (by decide)
theorem keep5_main_arg8 : W5 m ρ c (Proc.devRef .tc main_arg8) = W4 m ρ c (Proc.devRef .tc main_arg8) := W5_of_ne m ρ c main_arg8 (by decide)
theorem keep6_main_v43 : W6 m ρ c (Proc.devRef .tc main_v43) = W5 m ρ c (Proc.devRef .tc main_v43) := by host_keep hostOps3 main_v43
theorem keep6_main_arg7 : W6 m ρ c (Proc.devRef .tc main_arg7) = W5 m ρ c (Proc.devRef .tc main_arg7) := by host_keep hostOps3 main_arg7
theorem keep6_main_v1 : W6 m ρ c (Proc.devRef .tc main_v1) = W5 m ρ c (Proc.devRef .tc main_v1) := by host_keep hostOps3 main_v1
theorem keep6_main_v3 : W6 m ρ c (Proc.devRef .tc main_v3) = W5 m ρ c (Proc.devRef .tc main_v3) := by host_keep hostOps3 main_v3
theorem keep6_main_arg2 : W6 m ρ c (Proc.devRef .tc main_arg2) = W5 m ρ c (Proc.devRef .tc main_arg2) := by host_keep hostOps3 main_arg2
theorem keep6_main_arg8 : W6 m ρ c (Proc.devRef .tc main_arg8) = W5 m ρ c (Proc.devRef .tc main_arg8) := by host_keep hostOps3 main_arg8
theorem keep7_main_arg7 : W7 m ρ c (Proc.devRef .tc main_arg7) = W6 m ρ c (Proc.devRef .tc main_arg7) := W7_of_ne m ρ c main_arg7 (by decide)
theorem keep7_main_v1 : W7 m ρ c (Proc.devRef .tc main_v1) = W6 m ρ c (Proc.devRef .tc main_v1) := W7_of_ne m ρ c main_v1 (by decide)
theorem keep7_main_v3 : W7 m ρ c (Proc.devRef .tc main_v3) = W6 m ρ c (Proc.devRef .tc main_v3) := W7_of_ne m ρ c main_v3 (by decide)
theorem keep7_main_arg2 : W7 m ρ c (Proc.devRef .tc main_arg2) = W6 m ρ c (Proc.devRef .tc main_arg2) := W7_of_ne m ρ c main_arg2 (by decide)
theorem keep7_main_arg8 : W7 m ρ c (Proc.devRef .tc main_arg8) = W6 m ρ c (Proc.devRef .tc main_arg8) := W7_of_ne m ρ c main_arg8 (by decide)
theorem keep8_main_v1 : W8 m ρ c (Proc.devRef .tc main_v1) = W7 m ρ c (Proc.devRef .tc main_v1) := W8_of_ne m ρ c main_v1 (by decide)
theorem keep8_main_v3 : W8 m ρ c (Proc.devRef .tc main_v3) = W7 m ρ c (Proc.devRef .tc main_v3) := W8_of_ne m ρ c main_v3 (by decide)
theorem keep8_main_arg2 : W8 m ρ c (Proc.devRef .tc main_arg2) = W7 m ρ c (Proc.devRef .tc main_arg2) := W8_of_ne m ρ c main_arg2 (by decide)
theorem keep8_main_arg8 : W8 m ρ c (Proc.devRef .tc main_arg8) = W7 m ρ c (Proc.devRef .tc main_arg8) := W8_of_ne m ρ c main_arg8 (by decide)
theorem keep9_main_v82 : W9 m ρ c (Proc.devRef .tc main_v82) = W8 m ρ c (Proc.devRef .tc main_v82) := by host_keep hostOps5 main_v82

/-! ## The first four host operations slice the edge list -/

theorem row1 : W1 m ρ c (Proc.devRef .tc main_v1) = row m c := by
  show StableHlo.after hostOps0 (W0 m ρ c) (Proc.devRef .tc main_v1) = _
  after_results_simp
  rfl
theorem col1 : W1 m ρ c (Proc.devRef .tc main_v3) = col m c := by
  show StableHlo.after hostOps0 (W0 m ρ c) (Proc.devRef .tc main_v3) = _
  after_results_simp
  rfl

/-! ## Layer 1 -/

theorem at1_feat : V1 m ρ c main_arg0 = feat m c := (keep1_main_arg0 m ρ c).trans (rfl)
theorem at1_w1 : V1 m ρ c main_arg3 = w1 m c := (keep1_main_arg3 m ρ c).trans (rfl)
theorem at2_xw1 : W2 m ρ c (Proc.devRef .tc main_v4) = xw1 m c :=
  (W2_arr m ρ c 2).trans ((Product0.value (V1 m ρ) c).trans (congrArg₂ product (at1_feat m ρ c) (at1_w1 m ρ c)))
theorem at2_row : W2 m ρ c (Proc.devRef .tc main_v1) = row m c := (keep2_main_v1 m ρ c).trans (row1 m ρ c)
theorem at2_col : W2 m ρ c (Proc.devRef .tc main_v3) = col m c := (keep2_main_v3 m ρ c).trans (col1 m ρ c)
theorem at2_ew : W2 m ρ c (Proc.devRef .tc main_arg2) = ew m c := (keep2_main_arg2 m ρ c).trans ((keep1_main_arg2 m ρ c).trans (rfl))
theorem at2_b1 : W2 m ρ c (Proc.devRef .tc main_arg4) = b1 m c := (keep2_main_arg4 m ρ c).trans ((keep1_main_arg4 m ρ c).trans (rfl))
theorem at3_agg1 : V3 m ρ c main_v39 = agg1 m c := by
  show StableHlo.after hostOps1 (W2 m ρ c) (Proc.devRef .tc main_v39) = _
  after_results_simp
  rw [at2_row m ρ c, at2_col m ρ c, at2_ew m ρ c, at2_xw1 m ρ c]
  rfl
theorem at3_d : V3 m ρ c main_v40 = dcol m c := by
  show StableHlo.after hostOps1 (W2 m ρ c) (Proc.devRef .tc main_v40) = _
  after_results_simp
  rw [at2_col m ρ c, at2_ew m ρ c]
  rfl
theorem at3_b1 : V3 m ρ c main_v41 = brow (b1 m c) := by
  show StableHlo.after hostOps1 (W2 m ρ c) (Proc.devRef .tc main_v41) = _
  after_results_simp
  rw [at2_b1 m ρ c]
  rfl
theorem at3_xw1 : V3 m ρ c main_v4 = xw1 m c := (keep3_main_v4 m ρ c).trans (at2_xw1 m ρ c)
theorem at4_h1 : W4 m ρ c (Proc.devRef .tc main_v42) = h1 m c := by
  refine (W4_arr m ρ c 4).trans ?_
  refine (Combine1.value (V3 m ρ) c).trans ?_
  rw [at3_agg1 m ρ c, at3_xw1 m ρ c, at3_d m ρ c, at3_b1 m ρ c]

/-! ## Layer 2 -/

theorem at4_w2 : V4 m ρ c main_arg5 = w2 m c := (keep4_main_arg5 m ρ c).trans ((keep3_main_arg5 m ρ c).trans ((keep2_main_arg5 m ρ c).trans ((keep1_main_arg5 m ρ c).trans (rfl))))
theorem at5_xw2 : W5 m ρ c (Proc.devRef .tc main_v43) = xw2 m c :=
  (W5_arr m ρ c 2).trans ((Product2.value (V4 m ρ) c).trans (congrArg₂ product (at4_h1 m ρ c) (at4_w2 m ρ c)))
theorem at5_row : W5 m ρ c (Proc.devRef .tc main_v1) = row m c := (keep5_main_v1 m ρ c).trans ((keep4_main_v1 m ρ c).trans ((keep3_main_v1 m ρ c).trans (at2_row m ρ c)))
theorem at5_col : W5 m ρ c (Proc.devRef .tc main_v3) = col m c := (keep5_main_v3 m ρ c).trans ((keep4_main_v3 m ρ c).trans ((keep3_main_v3 m ρ c).trans (at2_col m ρ c)))
theorem at5_ew : W5 m ρ c (Proc.devRef .tc main_arg2) = ew m c := (keep5_main_arg2 m ρ c).trans ((keep4_main_arg2 m ρ c).trans ((keep3_main_arg2 m ρ c).trans (at2_ew m ρ c)))
theorem at5_b2 : W5 m ρ c (Proc.devRef .tc main_arg6) = b2 m c := (keep5_main_arg6 m ρ c).trans ((keep4_main_arg6 m ρ c).trans ((keep3_main_arg6 m ρ c).trans ((keep2_main_arg6 m ρ c).trans ((keep1_main_arg6 m ρ c).trans (rfl)))))
theorem at6_agg2 : V6 m ρ c main_v78 = agg2 m c := by
  show StableHlo.after hostOps3 (W5 m ρ c) (Proc.devRef .tc main_v78) = _
  after_results_simp
  rw [at5_row m ρ c, at5_col m ρ c, at5_ew m ρ c, at5_xw2 m ρ c]
  rfl
theorem at6_d : V6 m ρ c main_v79 = dcol m c := by
  show StableHlo.after hostOps3 (W5 m ρ c) (Proc.devRef .tc main_v79) = _
  after_results_simp
  rw [at5_col m ρ c, at5_ew m ρ c]
  rfl
theorem at6_b2 : V6 m ρ c main_v80 = brow (b2 m c) := by
  show StableHlo.after hostOps3 (W5 m ρ c) (Proc.devRef .tc main_v80) = _
  after_results_simp
  rw [at5_b2 m ρ c]
  rfl
theorem at6_xw2 : V6 m ρ c main_v43 = xw2 m c := (keep6_main_v43 m ρ c).trans (at5_xw2 m ρ c)
theorem at7_h2 : W7 m ρ c (Proc.devRef .tc main_v81) = h2 m c := by
  refine (W7_arr m ρ c 4).trans ?_
  refine (Combine3.value (V6 m ρ) c).trans ?_
  rw [at6_agg2 m ρ c, at6_xw2 m ρ c, at6_d m ρ c, at6_b2 m ρ c]

/-! ## Layer 3 -/

theorem at7_w3 : V7 m ρ c main_arg7 = w3 m c := (keep7_main_arg7 m ρ c).trans ((keep6_main_arg7 m ρ c).trans ((keep5_main_arg7 m ρ c).trans ((keep4_main_arg7 m ρ c).trans ((keep3_main_arg7 m ρ c).trans ((keep2_main_arg7 m ρ c).trans ((keep1_main_arg7 m ρ c).trans (rfl)))))))
theorem at8_xw3 : W8 m ρ c (Proc.devRef .tc main_v82) = xw3 m c :=
  (W8_arr m ρ c 2).trans ((Product4.value (V7 m ρ) c).trans (congrArg₂ product (at7_h2 m ρ c) (at7_w3 m ρ c)))
theorem at8_row : W8 m ρ c (Proc.devRef .tc main_v1) = row m c := (keep8_main_v1 m ρ c).trans ((keep7_main_v1 m ρ c).trans ((keep6_main_v1 m ρ c).trans (at5_row m ρ c)))
theorem at8_col : W8 m ρ c (Proc.devRef .tc main_v3) = col m c := (keep8_main_v3 m ρ c).trans ((keep7_main_v3 m ρ c).trans ((keep6_main_v3 m ρ c).trans (at5_col m ρ c)))
theorem at8_ew : W8 m ρ c (Proc.devRef .tc main_arg2) = ew m c := (keep8_main_arg2 m ρ c).trans ((keep7_main_arg2 m ρ c).trans ((keep6_main_arg2 m ρ c).trans (at5_ew m ρ c)))
theorem at8_b3 : W8 m ρ c (Proc.devRef .tc main_arg8) = b3 m c := (keep8_main_arg8 m ρ c).trans ((keep7_main_arg8 m ρ c).trans ((keep6_main_arg8 m ρ c).trans ((keep5_main_arg8 m ρ c).trans ((keep4_main_arg8 m ρ c).trans ((keep3_main_arg8 m ρ c).trans ((keep2_main_arg8 m ρ c).trans ((keep1_main_arg8 m ρ c).trans (rfl))))))))
theorem at9_agg3 : V9 m ρ c main_v117 = agg3 m c := by
  show StableHlo.after hostOps5 (W8 m ρ c) (Proc.devRef .tc main_v117) = _
  after_results_simp
  rw [at8_row m ρ c, at8_col m ρ c, at8_ew m ρ c, at8_xw3 m ρ c]
  rfl
theorem at9_d : V9 m ρ c main_v118 = dcol m c := by
  show StableHlo.after hostOps5 (W8 m ρ c) (Proc.devRef .tc main_v118) = _
  after_results_simp
  rw [at8_col m ρ c, at8_ew m ρ c]
  rfl
theorem at9_b3 : V9 m ρ c main_v119 = brow (b3 m c) := by
  show StableHlo.after hostOps5 (W8 m ρ c) (Proc.devRef .tc main_v119) = _
  after_results_simp
  rw [at8_b3 m ρ c]
  rfl
theorem at9_xw3 : V9 m ρ c main_v82 = xw3 m c := (keep9_main_v82 m ρ c).trans (at8_xw3 m ρ c)

/-- The result buffer at the return holds the third layer's activation. -/
theorem result_value : W10 m ρ c (Proc.devRef .tc main_v120) = h3 m c := by
  refine (W10_arr m ρ c 4).trans ?_
  refine (Combine5.value (V9 m ρ) c).trans ?_
  rw [at9_agg3 m ρ c, at9_xw3 m ρ c, at9_d m ρ c, at9_b3 m ρ c]

end Cert.KernelIdeal.GcnValue

end
-- ==== Proof.Bridge.lean ====
/-
  Where the two programs meet, entry by entry.

  (1) The kernel's tiled matrix product computes, at the ideal values, the same sum over k as the host's
      dot_general of the reference: `Cert.Gcn.product` IS the host product.
  (2) The reference ends a layer with whole-array operations — dinv · dinv broadcast along the channels, b broadcast
      along the nodes, a zero array for the clamp — while the kernel reshapes dinv to a column and b to a row and
      reads them per entry. Entry (r, c) is on both sides  max((agg[r,c] + (dinv[r] · dinv[r]) · xw[r,c]) + b[c], 0),
      the same scalar operations in the same grouping: no law of arithmetic is used, so this holds at every instance
      and needs no finiteness.
-/
import proofs.«150629_j3307124818507_1_alg».proof.Proof.RefLayer
import proofs.«150629_j3307124818507_1_alg».proof.Proof.Spec
import proofs.«150629_j3307124818507_1_alg».proof.Proof.Gen.KernelIdeal
import Idealize.ShloMosaic.Lib.Pipeline.Value
import Idealize.ShloMosaic.Lib.ValueIdx

set_option maxRecDepth 16384

noncomputable section

namespace Cert.Gcn.Bridge

open Idealize.ShloMosaic Cert.Gcn
open Cert.ReferenceIdeal.Layer (finish)

/-- The host product of the reference, at the ideal values, is the sum over k that the kernel's tiles compute. -/
theorem product_eq (h : (⟨Cert.ReferenceIdeal.S100000x128, .f32⟩ : BufTy).Contents (Elt Ideal)) (w : (⟨Cert.ReferenceIdeal.S128x128, .f32⟩ : BufTy).Contents (Elt Ideal)) :
    product h w = Host.dotGeneral (F := Ideal) (φ₁ := .f32) (φ₂ := .f32) Cert.ReferenceIdeal.dot_S100000x128_S128x128_S100000x128_1_0_0_1_n_n none h w := by
  funext i
  refine ((Cert.ReferenceIdeal.Read.val_main_v4_apply h w i).trans ?_).symm
  unfold product
  refine Finset.sum_congr rfl fun k _ => ?_
  have e0 : Cert.ReferenceIdeal.Read.lidx_main_v4 i k = inRow i k := funext fun a => by
    match a with
    | ⟨0, _⟩ => rfl
    | ⟨1, _⟩ => rfl
  have e1 : Cert.ReferenceIdeal.Read.ridx_main_v4 i k = inCol i k := funext fun a => by
    match a with
    | ⟨0, _⟩ => rfl
    | ⟨1, _⟩ => rfl
  rw [e0, e1]

variable {F : FTy → Type} [FloatOps F]

/-- The node of an entry, as an index of a per-node vector. -/
abbrev nodeOf (i : SNodes.Idx) : Cert.ReferenceIdeal.S100000.Idx := fun a => match a with
  | ⟨0, _⟩ => ⟨(i 0).val, (i 0).isLt⟩
/-- The channel of an entry, as an index of a per-channel vector. -/
abbrev channelOf (i : SNodes.Idx) : Cert.ReferenceIdeal.S128.Idx := fun a => match a with
  | ⟨0, _⟩ => ⟨(i 1).val, (i 1).isLt⟩

/-- The reference's last part of a layer is the kernel's combination of the same arrays, dinv as a column and b as a row. -/
theorem finish_eq (agg xw : (⟨Cert.ReferenceIdeal.S100000x128, .f32⟩ : BufTy).Contents (Elt F)) (dinv : (⟨Cert.ReferenceIdeal.S100000, .f32⟩ : BufTy).Contents (Elt F)) (b : (⟨Cert.ReferenceIdeal.S128, .f32⟩ : BufTy).Contents (Elt F)) :
    finish agg xw dinv b = combine agg xw (shapeCast Cert.KernelIdeal.S100000x1 dinv Cert.KernelIdeal.Gen.shapeCasts_S100000_S100000x1) (shapeCast Cert.KernelIdeal.S1x128 b Cert.KernelIdeal.Gen.shapeCasts_S128_S1x128) := by
  funext i
  have hD : broadcastInDim Cert.ReferenceIdeal.S100000x128 ![0, 1] Cert.ReferenceIdeal.Gen.bcast_S100000x1_S100000x128_0_1 (broadcastInDim Cert.ReferenceIdeal.S100000x1 ![0] Cert.ReferenceIdeal.Gen.bcast_S100000_S100000x1_0 (mulf dinv dinv)) i = FloatOps.mulf (dinv (nodeOf i)) (dinv (nodeOf i)) :=
    (broadcastInDim_apply _ Cert.ReferenceIdeal.Gen.bcast_S100000x1_S100000x128_0_1 _ i (ofNode i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])).trans
    ((broadcastInDim_apply _ Cert.ReferenceIdeal.Gen.bcast_S100000_S100000x1_0 _ (ofNode i) (nodeOf i) (fun a => match a with
      | ⟨0, _⟩ => by show (i 0).val = if (100000 : Nat) = 1 then 0 else (i 0).val; rw [if_neg (by decide)])).trans rfl)
  have hB : broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 b) i = b (channelOf i) :=
    (broadcastInDim_apply _ Cert.ReferenceIdeal.Gen.bcast_S1x128_S100000x128_0_1 _ i (ofChannel i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])).trans
    (broadcastInDim_apply _ Cert.ReferenceIdeal.Gen.bcast_S128_S1x128_1 _ (ofChannel i) (channelOf i) (fun a => match a with
      | ⟨0, _⟩ => by show (i 1).val = if (128 : Nat) = 1 then 0 else (i 1).val; rw [if_neg (by decide)]))
  have hZ : broadcastInDim Cert.ReferenceIdeal.S100000x128 ![] Cert.ReferenceIdeal.Gen.bcast_S_S100000x128 (constant Cert.ReferenceIdeal.S_ .f32 0x00000000#32 : (⟨Cert.ReferenceIdeal.S_, .f32⟩ : BufTy).Contents (Elt F)) i = FloatOps.ofBits .f32 0x00000000#32 :=
    (broadcastInDim_apply _ Cert.ReferenceIdeal.Gen.bcast_S_S100000x128 _ i (fun a => a.elim0) (fun a => a.elim0)).trans rfl
  have hDc : shapeCast Cert.KernelIdeal.S100000x1 dinv Cert.KernelIdeal.Gen.shapeCasts_S100000_S100000x1 (ofNode i) = dinv (nodeOf i) :=
    shapeCast_apply dinv Cert.KernelIdeal.Gen.shapeCasts_S100000_S100000x1 (ofNode i) (nodeOf i) (by
      rw [Shape.rowMajor_val_one, Shape.rowMajor_val_two]
      show (i 0).val = (i 0).val * 1 + 0; omega)
  have hBc : shapeCast Cert.KernelIdeal.S1x128 b Cert.KernelIdeal.Gen.shapeCasts_S128_S1x128 (ofChannel i) = b (channelOf i) :=
    shapeCast_apply b Cert.KernelIdeal.Gen.shapeCasts_S128_S1x128 (ofChannel i) (channelOf i) (by
      rw [Shape.rowMajor_val_one, Shape.rowMajor_val_two]
      show (i 1).val = 0 * 128 + (i 1).val; omega)
  show FloatOps.maximumf (FloatOps.addf (FloatOps.addf (agg i) (FloatOps.mulf (broadcastInDim Cert.ReferenceIdeal.S100000x128 ![0, 1] Cert.ReferenceIdeal.Gen.bcast_S100000x1_S100000x128_0_1 (broadcastInDim Cert.ReferenceIdeal.S100000x1 ![0] Cert.ReferenceIdeal.Gen.bcast_S100000_S100000x1_0 (mulf dinv dinv)) i) (xw i))) (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 b) i)) (broadcastInDim Cert.ReferenceIdeal.S100000x128 ![] Cert.ReferenceIdeal.Gen.bcast_S_S100000x128 (constant Cert.ReferenceIdeal.S_ .f32 0x00000000#32 : (⟨Cert.ReferenceIdeal.S_, .f32⟩ : BufTy).Contents (Elt F)) i)
     = FloatOps.maximumf (FloatOps.addf (FloatOps.addf (agg i) (FloatOps.mulf (FloatOps.mulf (shapeCast Cert.KernelIdeal.S100000x1 dinv Cert.KernelIdeal.Gen.shapeCasts_S100000_S100000x1 (ofNode i)) (shapeCast Cert.KernelIdeal.S100000x1 dinv Cert.KernelIdeal.Gen.shapeCasts_S100000_S100000x1 (ofNode i))) (xw i))) (shapeCast Cert.KernelIdeal.S1x128 b Cert.KernelIdeal.Gen.shapeCasts_S128_S1x128 (ofChannel i)))
        (FloatOps.ofBits .f32 0x00000000#32)
  rw [hD, hB, hZ, hDc, hBc]

end Cert.Gcn.Bridge

end
-- ==== Proof.Agree.lean ====
/-
  The kernel's result and the reference's result are one function of the arguments.

  One layer of the reference, `layer row col ew h W b`, is: project h by a host matrix product, aggregate the
  projected features over the edges, and finish entry by entry. The kernel's layer is: `product h W` by a tiled
  region, the same aggregation by the same host operations, and `combine` by a tiled region. The product is the
  host's at the ideal values and `combine` is the reference's finishing part (Bridge), and the aggregation and dinv
  are literally the same functions of the same operands; so a layer is a layer, and three layers are three layers.
-/
import proofs.«150629_j3307124818507_1_alg».proof.Proof.KernelValue
import proofs.«150629_j3307124818507_1_alg».proof.Proof.Bridge

set_option maxRecDepth 16384

noncomputable section

namespace Cert.KernelIdeal.GcnAgree

open Cert.KernelIdeal Cert.KernelIdeal.Gen Cert.KernelIdeal.GcnValue Cert.Gcn
open Idealize.ShloMosaic Idealize.ShloMosaic.TcCoe Idealize.SL.Sem
open Cert.ReferenceIdeal.Layer (aggregate degInv layer layerOf finish)

/-- One layer of the reference at the ideal values, in the kernel's terms. -/
theorem layer_eq (r k : (⟨S1600000, .i32⟩ : BufTy).Contents (Elt Ideal)) (e : (⟨S1600000, .f32⟩ : BufTy).Contents (Elt Ideal)) (h : (⟨S100000x128, .f32⟩ : BufTy).Contents (Elt Ideal))
    (w : (⟨S128x128, .f32⟩ : BufTy).Contents (Elt Ideal)) (b : (⟨S128, .f32⟩ : BufTy).Contents (Elt Ideal)) :
    layer (F := Ideal) r k e h w b
      = combine (aggregate (F := Ideal) r k e (product h w)) (product h w)
          (shapeCast S100000x1 (degInv (F := Ideal) k e) shapeCasts_S100000_S100000x1) (shapeCast S1x128 b shapeCasts_S128_S1x128) := by
  unfold layer layerOf
  rw [← Cert.Gcn.Bridge.product_eq h w, Cert.Gcn.Bridge.finish_eq]

variable (m : (ℓ : Loc nD τ sig) → Buf (Elt Ideal) ℓ) (c : Dev nD)

/-- The kernel's third activation is the reference's layer applied three times to the arguments. -/
theorem h3_eq : h3 m c = layer (F := Ideal) (row m c) (col m c) (ew m c)
      (layer (F := Ideal) (row m c) (col m c) (ew m c)
        (layer (F := Ideal) (row m c) (col m c) (ew m c) (feat m c) (w1 m c) (b1 m c)) (w2 m c) (b2 m c)) (w3 m c) (b3 m c) := by
  rw [layer_eq, layer_eq, layer_eq]

/-- The reference's printed result stage, at the kernel's arguments, is the kernel's third activation. -/
theorem reference_value :
    Cert.ReferenceIdeal.Read.val_main_v138 (F := Ideal) (feat m c) (edges m c) (ew m c) (w1 m c) (b1 m c) (w2 m c) (b2 m c) (w3 m c) (b3 m c) = h3 m c := by
  rw [Cert.ReferenceIdeal.Layer.third, Cert.ReferenceIdeal.Layer.second, Cert.ReferenceIdeal.Layer.first]
  exact (h3_eq m c).symm

end Cert.KernelIdeal.GcnAgree

end
-- ==== Proof.lean ====
/-
  Three layers of graph convolution, GCNConv with self loops and symmetric normalization followed by ReLU:
      h' = relu( agg + dinv² · (h · W) + b ),
      dinv = rsqrt(segment_sum(ew, col) + 1),   agg = segment_sum(dinv[row] · ew · dinv[col] · (h · W)[row], col).
  The kernel keeps the edge-indexed gathers and scatter-adds on the host, exactly as the reference has them, and runs
  the two rectangular parts of each layer as row-tiled regions: the matrix product h · W (bf16 operands, f32
  accumulation, every tile holding the whole contraction) and the entry-by-entry combination with the clamp.

  At the ideal values rounding to bf16 is the identity, a tile's product entry is the whole sum over k, and the
  combination is the same scalar operations in the same grouping as the reference's; so the two programs compute one
  function of the arguments, and the proof uses no law of arithmetic beyond reading both products as the same sum —
  the precondition (finite inputs) is never opened.

  The frames of the two kernel programs are the generated ones. The reference has no kernel: its frame is its run
  with the result dropped. The idealization's ledger is empty, so `preserves` asks nothing.
-/
import proofs.«150629_j3307124818507_1_alg».proof.Defs
import proofs.«150629_j3307124818507_1_alg».proof.Proof.Gen.Kernel
import proofs.«150629_j3307124818507_1_alg».proof.Proof.Gen.Kernel.Skeleton
import proofs.«150629_j3307124818507_1_alg».proof.Proof.Gen.Kernel.Launch
import proofs.«150629_j3307124818507_1_alg».proof.Proof.Gen.Kernel.Points
import proofs.«150629_j3307124818507_1_alg».proof.Proof.Gen.Kernel.Frame
import proofs.«150629_j3307124818507_1_alg».proof.Proof.Gen.KernelIdeal
import proofs.«150629_j3307124818507_1_alg».proof.Proof.Gen.KernelIdeal.Skeleton
import proofs.«150629_j3307124818507_1_alg».proof.Proof.Gen.KernelIdeal.Launch
import proofs.«150629_j3307124818507_1_alg».proof.Proof.Gen.KernelIdeal.Points
import proofs.«150629_j3307124818507_1_alg».proof.Proof.Gen.KernelIdeal.Frame
import proofs.«150629_j3307124818507_1_alg».proof.Proof.Gen.ReferenceIdeal
import proofs.«150629_j3307124818507_1_alg».proof.Proof.Gen.ReferenceIdeal.Run
import proofs.«150629_j3307124818507_1_alg».proof.Proof.Gen.ReferenceIdeal.Read
import proofs.«150629_j3307124818507_1_alg».proof.Proof.Gen.Pre_finite_inputs
import proofs.«150629_j3307124818507_1_alg».proof.Proof.KernelRun
import proofs.«150629_j3307124818507_1_alg».proof.Proof.KernelValue
import proofs.«150629_j3307124818507_1_alg».proof.Proof.Agree
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's run ends with the arguments unchanged: its generated run, the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both idealized programs terminate with the third activation of the
    arguments in their result buffers: the kernel by its run and the walk through its boundary contents, the reference
    by its run, whose printed result stage is the same three layers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.GcnValue.h3 m c, ?_, ?_⟩
  · exact (θ_run Cert.KernelIdeal.defs _ _).mono
      (fun r h c => ⟨(h c).1.trans (Cert.KernelIdeal.GcnValue.result_value m ρ c), (h c).2⟩)
      (Cert.KernelIdeal.GcnRun.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v138_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact Cert.KernelIdeal.GcnAgree.reference_value m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
